-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S2x320000 : Shape := ⟨2, ![2, 320000]⟩
abbrev S320000 : Shape := ⟨1, ![320000]⟩
abbrev S5x256x256 : Shape := ⟨3, ![5, 256, 256]⟩
abbrev S256 : Shape := ⟨1, ![256]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S5x256x256 : S_.BroadcastsInDim S5x256x256 (![] : Fin 0 → Fin S5x256x256.rank)
  reducesTo_S5x256x256_S_d0_1_2 : S5x256x256.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S40000x256 .f32) (main_arg1 : IVec S2x320000 32) (main_arg2 : FVec F S320000 .f32) (main_arg3 : FVec F S5x256x256 .f32) (main_arg4 : FVec F S256 .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S5x256x256 .f32 := Host.absf main_arg3
  let main_cst_2 : FVec F S_ .f32 := constant S_ .f32 0x7F800000#32
  let main_v10 : FVec F S5x256x256 .f32 := broadcastInDim S5x256x256 ![] bcast_S_S5x256x256 main_cst_2
  let main_v11 : IVec S5x256x256 1 := cmpf .olt main_v9 main_v10
  let main_c_3 : IVec S_ 1 := constantI S_ 1 1#1
  let main_v12 : IVec S_ 1 := (fun x v => Host.reduce IntOp.andi x v reducesTo_S5x256x256_S_d0_1_2 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S40000x256 : Shape := ⟨2, ![40000, 256]⟩
abbrev S2x320000 : Shape := ⟨2, ![2, 320000]⟩
abbrev S320000 : Shape := ⟨1, ![320000]⟩
abbrev S5x256x256 : Shape := ⟨3, ![5, 256, 256]⟩
abbrev S256 : Shape := ⟨1, ![256]⟩
abbrev S1x320000 : Shape := ⟨2, ![1, 320000]⟩
abbrev S_ : Shape := ⟨0, ![]⟩
abbrev S40000 : Shape := ⟨1, ![40000]⟩
abbrev S320000x1 : Shape := ⟨2, ![320000, 1]⟩
abbrev S1x256 : Shape := ⟨2, ![1, 256]⟩
abbrev S1x256x256 : Shape := ⟨3, ![1, 256, 256]⟩
abbrev S256x256 : Shape := ⟨2, ![256, 256]⟩
abbrev S4000x256 : Shape := ⟨2, ![4000, 256]⟩
abbrev S320000x256 : Shape := ⟨2, ![320000, 256]⟩

abbrev nBuf : Space → Nat
  | .hbm => 143
  | .vmem => 37
  | .smem => 0
  | _ => 0

abbrev hbmTy0_0 (i : Nat) : BufTy := match i % 128 with
  | 0 => ⟨S40000x256, .f32⟩
  | 1 => ⟨S2x320000, .i32⟩
  | 2 => ⟨S320000, .f32⟩
  | 3 => ⟨S5x256x256, .f32⟩
  | 4 => ⟨S256, .f32⟩
  | 5 => ⟨S1x320000, .i32⟩
  | 6 => ⟨S320000, .i32⟩
  | 7 => ⟨S1x320000, .i32⟩
  | 8 => ⟨S320000, .i32⟩
  | 9 => ⟨S320000, .i1⟩
  | 10 => ⟨S_, .f32⟩
  | 11 => ⟨S_, .f32⟩
  | 12 => ⟨S320000, .f32⟩
  | 13 => ⟨S320000, .f32⟩
  | 14 => ⟨S320000, .f32⟩
  | 15 => ⟨S_, .f32⟩
  | 16 => ⟨S40000, .f32⟩
  | 17 => ⟨S320000x1, .i32⟩
  | 18 => ⟨S40000, .f32⟩
  | 19 => ⟨S_, .f32⟩
  | 20 => ⟨S40000, .f32⟩
  | 21 => ⟨S40000, .i1⟩
  | 22 => ⟨S_, .f32⟩
  | 23 => ⟨S40000, .f32⟩
  | 24 => ⟨S40000, .f32⟩
  | 25 => ⟨S40000, .f32⟩
  | 26 => ⟨S_, .f32⟩
  | 27 => ⟨S_, .f32⟩
  | 28 => ⟨S40000, .f32⟩
  | 29 => ⟨S40000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S320000, .f32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S1x256, .f32⟩
  | 52 => ⟨S1x256x256, .f32⟩
  | 53 => ⟨S256x256, .f32⟩
  | 54 => ⟨S40000x256, .f32⟩
  | 55 => ⟨S320000x1, .f32⟩
  | 56 => ⟨S_, .i32⟩
  | 57 => ⟨S320000, .i32⟩
  | 58 => ⟨S320000, .i1⟩
  | 59 => ⟨S_, .i32⟩
  | 60 => ⟨S320000, .i32⟩
  | 61 => ⟨S320000, .i32⟩
  | 62 => ⟨S320000, .i32⟩
  | 63 => ⟨S320000x1, .i32⟩
  | 64 => ⟨S320000x256, .f32⟩
  | 65 => ⟨S320000x256, .f32⟩
  | 66 => ⟨S320000x256, .f32⟩
  | 67 => ⟨S_, .f32⟩
  | 68 => ⟨S40000x256, .f32⟩
  | 69 => ⟨S320000x1, .i32⟩
  | 70 => ⟨S40000x256, .f32⟩
  | 71 => ⟨S1x256x256, .f32⟩
  | 72 => ⟨S256x256, .f32⟩
  | 73 => ⟨S40000x256, .f32⟩
  | 74 => ⟨S320000x1, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x256, .f32⟩
  | 84 => ⟨S320000x256, .f32⟩
  | 85 => ⟨S320000x256, .f32⟩
  | 86 => ⟨S_, .f32⟩
  | 87 => ⟨S40000x256, .f32⟩
  | 88 => ⟨S320000x1, .i32⟩
  | 89 => ⟨S40000x256, .f32⟩
  | 90 => ⟨S_, .f32⟩
  | 91 => ⟨S40000x256, .f32⟩
  | 92 => ⟨S40000x256, .f32⟩
  | 93 => ⟨S40000x256, .f32⟩
  | 94 => ⟨S1x256x256, .f32⟩
  | 95 => ⟨S256x256, .f32⟩
  | 96 => ⟨S40000x256, .f32⟩
  | 97 => ⟨S320000x1, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000x256, .f32⟩
  | 107 => ⟨S320000x256, .f32⟩
  | 108 => ⟨S320000x256, .f32⟩
  | 109 => ⟨S_, .f32⟩
  | 110 => ⟨S40000x256, .f32⟩
  | 111 => ⟨S320000x1, .i32⟩
  | 112 => ⟨S40000x256, .f32⟩
  | 113 => ⟨S_, .f32⟩
  | 114 => ⟨S40000x256, .f32⟩
  | 115 => ⟨S40000x256, .f32⟩
  | 116 => ⟨S40000x256, .f32⟩
  | 117 => ⟨S1x256x256, .f32⟩
  | 118 => ⟨S256x256, .f32⟩
  | 119 => ⟨S40000x256, .f32⟩
  | 120 => ⟨S320000x1, .f32⟩
  | 121 => ⟨S_, .i32⟩
  | 122 => ⟨S320000, .i32⟩
  | 123 => ⟨S320000, .i1⟩
  | 124 => ⟨S_, .i32⟩
  | 125 => ⟨S320000, .i32⟩
  | 126 => ⟨S320000, .i32⟩
  | 127 => ⟨S320000, .i32⟩
  | _ => ⟨S40000x256, .f32⟩

abbrev hbmTy0_1 (i : Nat) : BufTy := match i % 128 with
  | 0 => ⟨S320000x1, .i32⟩
  | 1 => ⟨S320000x256, .f32⟩
  | 2 => ⟨S320000x256, .f32⟩
  | 3 => ⟨S320000x256, .f32⟩
  | 4 => ⟨S_, .f32⟩
  | 5 => ⟨S40000x256, .f32⟩
  | 6 => ⟨S320000x1, .i32⟩
  | 7 => ⟨S40000x256, .f32⟩
  | 8 => ⟨S_, .f32⟩
  | 9 => ⟨S40000x256, .f32⟩
  | 10 => ⟨S40000x256, .f32⟩
  | 11 => ⟨S40000x256, .f32⟩
  | 12 => ⟨S1x256x256, .f32⟩
  | 13 => ⟨S256x256, .f32⟩
  | 14 => ⟨S40000x256, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S256x256, .f32⟩
  | .local _ .vmem, ⟨16, _⟩ => ⟨S1x256, .f32⟩
  | .local _ .vmem, ⟨17, _⟩ => ⟨S4000x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S4000x256, .f32⟩
  | .local _ .vmem, ⟨23, _⟩ => ⟨S256x256, .f32⟩
  | .local _ .vmem, ⟨24, _⟩ => ⟨S1x256, .f32⟩
  | .local _ .vmem, ⟨25, _⟩ => ⟨S4000x256, .f32⟩
  | .local _ .vmem, ⟨26, _⟩ => ⟨S4000x256, .f32⟩
  | .local _ .vmem, ⟨27, _⟩ => ⟨S4000x256, .f32⟩
  | .local _ .vmem, ⟨28, _⟩ => ⟨S4000x256, .f32⟩
  | .local _ .vmem, ⟨29, _⟩ => ⟨S4000x256, .f32⟩
  | .local _ .vmem, ⟨30, _⟩ => ⟨S4000x256, .f32⟩
  | .local _ .vmem, ⟨31, _⟩ => ⟨S256x256, .f32⟩
  | .local _ .vmem, ⟨32, _⟩ => ⟨S1x256, .f32⟩
  | .local _ .vmem, ⟨33, _⟩ => ⟨S4000x256, .f32⟩
  | .local _ .vmem, ⟨34, _⟩ => ⟨S4000x256, .f32⟩
  | .local _ .vmem, ⟨35, _⟩ => ⟨S4000x256, .f32⟩
  | .local _ .vmem, ⟨36, _⟩ => ⟨S4000x256, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_c_15 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_18 : Ref sig .tc := ⟨.hbm, 121, rfl⟩
abbrev main_v92 : Ref sig .tc := ⟨.hbm, 122, rfl⟩
abbrev main_v93 : Ref sig .tc := ⟨.hbm, 123, rfl⟩
abbrev main_c_19 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_20 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg4_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem3_1 : DmaSem sig := 34
abbrev cc4_sem4_0 : DmaSem sig := 35
abbrev cc4_sem4_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4000x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S40000 : S_.BroadcastsInDim S40000 (![] : Fin 0 → Fin S40000.rank)
  bcast_S320000_S320000x1_0 : S320000.BroadcastsInDim S320000x1 (![0] : Fin 1 → Fin S320000x1.rank)
  shapeCasts_S256_S1x256 : S256.ShapeCasts S1x256
  slices_S5x256x256_S1x256x256_0_0_0 : S5x256x256.Slices ![0, 0, 0] S1x256x256
  shapeCasts_S1x256x256_S256x256 : S1x256x256.ShapeCasts S256x256
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S320000x1_S320000x256_0_1 : S320000x1.BroadcastsInDim S320000x256 (![0, 1] : Fin 2 → Fin S320000x256.rank)
  bcast_S_S40000x256 : S_.BroadcastsInDim S40000x256 (![] : Fin 0 → Fin S40000x256.rank)
  slices_S5x256x256_S1x256x256_1_0_0 : S5x256x256.Slices ![1, 0, 0] S1x256x256
  shapeCasts_S4000x256_S4000x256 : S4000x256.ShapeCasts S4000x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  scatter_S40000_S320000x1_S320000_n_0_0_1_wf : ScatterDims.WF S40000 S320000x1 S320000 [] [0] [0] 1
  gather_S40000_S320000x1_S320000_n_0_n_n_0_1_1_wf : GatherDims.WF S40000 S320000x1 S320000 [] [0] [] [0] [] 1 ![1]
  dot_S4000x256_S256x256_S4000x256_1_0_0_1_n_n_wf : DotDims.WF S4000x256 S256x256 S4000x256 [1] [0] [0] [1] [] []
  gather_S40000x256_S320000x1_S320000x256_1_0_n_n_0_1_1256_wf : GatherDims.WF S40000x256 S320000x1 S320000x256 [1] [0] [] [0] [] 1 ![1, 256]
  scatter_S40000x256_S320000x1_S320000x256_1_0_0_1_wf : ScatterDims.WF S40000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S40000x256.size a
  hwx0_0 : ∀ i : grid0.Coords, EltTy.bits .f32 = 32 ∨ (Rect.block (s := S40000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S40000x256.size a
  hwx0_2 : ∀ i : grid0.Coords, EltTy.bits .f32 = 32 ∨ (Rect.block (s := S40000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S40000x256.size a
  hwx1_0 : ∀ i : grid1.Coords, EltTy.bits .f32 = 32 ∨ (Rect.block (s := S40000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x256.size a ≤ S40000x256.size a
  hwx1_3 : ∀ i : grid1.Coords, EltTy.bits .f32 = 32 ∨ (Rect.block (s := S40000x256) S4000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x256.size a ≤ S40000x256.size a
  hwx1_4 : ∀ i : grid1.Coords, EltTy.bits .f32 = 32 ∨ (Rect.block (s := S40000x256) S4000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S40000x256.size a
  hwx2_0 : ∀ i : grid2.Coords, EltTy.bits .f32 = 32 ∨ (Rect.block (s := S40000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x256.size a ≤ S40000x256.size a
  hwx2_3 : ∀ i : grid2.Coords, EltTy.bits .f32 = 32 ∨ (Rect.block (s := S40000x256) S4000x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x256.size a ≤ S40000x256.size a
  hwx2_4 : ∀ i : grid2.Coords, EltTy.bits .f32 = 32 ∨ (Rect.block (s := S40000x256) S4000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S40000x256.size a
  hwx3_0 : ∀ i : grid3.Coords, EltTy.bits .f32 = 32 ∨ (Rect.block (s := S40000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x256.size a ≤ S40000x256.size a
  hwx3_3 : ∀ i : grid3.Coords, EltTy.bits .f32 = 32 ∨ (Rect.block (s := S40000x256) S4000x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x256.size a ≤ S40000x256.size a
  hwx3_4 : ∀ i : grid3.Coords, EltTy.bits .f32 = 32 ∨ (Rect.block (s := S40000x256) S4000x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S40000x256.size a
  hwx4_0 : ∀ i : grid4.Coords, EltTy.bits .f32 = 32 ∨ (Rect.block (s := S40000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x256.size a ≤ S40000x256.size a
  hwx4_3 : ∀ i : grid4.Coords, EltTy.bits .f32 = 32 ∨ (Rect.block (s := S40000x256) S4000x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x256.size a ≤ S40000x256.size a
  hwx4_4 : ∀ i : grid4.Coords, EltTy.bits .f32 = 32 ∨ (Rect.block (s := S40000x256) S4000x256.size (cc4_transform_4 i) (hinb4_4 i)).WholeWords (EltTy.packing .f32)

variable [Facts₀]

def scatter_S40000_S320000x1_S320000_n_0_0_1 : ScatterDims S40000 S320000x1 S320000 where
  updateWindowDims := []
  insertedWindowDims := [0]
  scatterDimsToOperandDims := [0]
  indexVectorDim := 1
  wf := scatter_S40000_S320000x1_S320000_n_0_0_1_wf
def gather_S40000_S320000x1_S320000_n_0_n_n_0_1_1 : GatherDims S40000 S320000x1 S320000 where
  offsetDims := []
  collapsedSliceDims := [0]
  operandBatchingDims := []
  startIndicesBatchingDims := []
  startIndexMap := [0]
  indexVectorDim := 1
  sliceSizes := ![1]
  wf := gather_S40000_S320000x1_S320000_n_0_n_n_0_1_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S40000x256_S320000x1_S320000x256_1_0_n_n_0_1_1256 : GatherDims S40000x256 S320000x1 S320000x256 where
  offsetDims := [1]
  collapsedSliceDims := [0]
  operandBatchingDims := []
  startIndicesBatchingDims := []
  startIndexMap := [0]
  indexVectorDim := 1
  sliceSizes := ![1, 256]
  wf := gather_S40000x256_S320000x1_S320000x256_1_0_n_n_0_1_1256_wf
def scatter_S40000x256_S320000x1_S320000x256_1_0_0_1 : ScatterDims S40000x256 S320000x1 S320000x256 where
  updateWindowDims := [1]
  insertedWindowDims := [0]
  scatterDimsToOperandDims := [0]
  indexVectorDim := 1
  wf := scatter_S40000x256_S320000x1_S320000x256_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S4000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52) S4000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v68) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S4000x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v71) S4000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v87) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v89) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S4000x256.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v90) S4000x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v106) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v108) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v33) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S4000x256.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v109) S4000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where
  halias1_4 : Pipeline.Aliased win1 3 4
  halias2_4 : Pipeline.Aliased win2 3 4
  halias3_4 : Pipeline.Aliased win3 3 4
  halias4_4 : Pipeline.Aliased win4 3 4

variable [Facts]
-- ==== ReferenceIdeal.lean ====
abbrev S40000x256 : Shape := ⟨2, ![40000, 256]⟩
abbrev S2x320000 : Shape := ⟨2, ![2, 320000]⟩
abbrev S320000 : Shape := ⟨1, ![320000]⟩
abbrev S5x256x256 : Shape := ⟨3, ![5, 256, 256]⟩
abbrev S256 : Shape := ⟨1, ![256]⟩
abbrev S1x320000 : Shape := ⟨2, ![1, 320000]⟩
abbrev S_ : Shape := ⟨0, ![]⟩
abbrev S40000 : Shape := ⟨1, ![40000]⟩
abbrev S320000x1 : Shape := ⟨2, ![320000, 1]⟩
abbrev S1x256x256 : Shape := ⟨3, ![1, 256, 256]⟩
abbrev S256x256 : Shape := ⟨2, ![256, 256]⟩
abbrev S320000x256 : Shape := ⟨2, ![320000, 256]⟩
abbrev S1x256 : Shape := ⟨2, ![1, 256]⟩

abbrev nBuf : Space → Nat
  | .hbm => 149
  | .vmem => 0
  | .smem => 0
  | _ => 0

abbrev hbmTy0_0 (i : Nat) : BufTy := match i % 128 with
  | 0 => ⟨S40000x256, .f32⟩
  | 1 => ⟨S2x320000, .i32⟩
  | 2 => ⟨S320000, .f32⟩
  | 3 => ⟨S5x256x256, .f32⟩
  | 4 => ⟨S256, .f32⟩
  | 5 => ⟨S1x320000, .i32⟩
  | 6 => ⟨S320000, .i32⟩
  | 7 => ⟨S1x320000, .i32⟩
  | 8 => ⟨S320000, .i32⟩
  | 9 => ⟨S320000, .i1⟩
  | 10 => ⟨S_, .f32⟩
  | 11 => ⟨S_, .f32⟩
  | 12 => ⟨S320000, .f32⟩
  | 13 => ⟨S320000, .f32⟩
  | 14 => ⟨S320000, .f32⟩
  | 15 => ⟨S_, .f32⟩
  | 16 => ⟨S40000, .f32⟩
  | 17 => ⟨S320000x1, .i32⟩
  | 18 => ⟨S40000, .f32⟩
  | 19 => ⟨S_, .f32⟩
  | 20 => ⟨S40000, .f32⟩
  | 21 => ⟨S40000, .i1⟩
  | 22 => ⟨S_, .f32⟩
  | 23 => ⟨S40000, .f32⟩
  | 24 => ⟨S40000, .f32⟩
  | 25 => ⟨S40000, .f32⟩
  | 26 => ⟨S_, .f32⟩
  | 27 => ⟨S_, .f32⟩
  | 28 => ⟨S40000, .f32⟩
  | 29 => ⟨S40000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S320000, .f32⟩
  | 40 => ⟨S320000, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000, .f32⟩
  | 50 => ⟨S320000, .f32⟩
  | 51 => ⟨S1x256x256, .f32⟩
  | 52 => ⟨S256x256, .f32⟩
  | 53 => ⟨S40000x256, .f32⟩
  | 54 => ⟨S320000x1, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x256, .f32⟩
  | 64 => ⟨S320000x256, .f32⟩
  | 65 => ⟨S320000x256, .f32⟩
  | 66 => ⟨S_, .f32⟩
  | 67 => ⟨S40000x256, .f32⟩
  | 68 => ⟨S320000x1, .i32⟩
  | 69 => ⟨S40000x256, .f32⟩
  | 70 => ⟨S1x256x256, .f32⟩
  | 71 => ⟨S256x256, .f32⟩
  | 72 => ⟨S40000x256, .f32⟩
  | 73 => ⟨S40000x256, .f32⟩
  | 74 => ⟨S320000x1, .f32⟩
  | 75 => ⟨S_, .i32⟩
  | 76 => ⟨S320000, .i32⟩
  | 77 => ⟨S320000, .i1⟩
  | 78 => ⟨S_, .i32⟩
  | 79 => ⟨S320000, .i32⟩
  | 80 => ⟨S320000, .i32⟩
  | 81 => ⟨S320000, .i32⟩
  | 82 => ⟨S320000x1, .i32⟩
  | 83 => ⟨S320000x256, .f32⟩
  | 84 => ⟨S320000x256, .f32⟩
  | 85 => ⟨S320000x256, .f32⟩
  | 86 => ⟨S_, .f32⟩
  | 87 => ⟨S40000x256, .f32⟩
  | 88 => ⟨S320000x1, .i32⟩
  | 89 => ⟨S40000x256, .f32⟩
  | 90 => ⟨S_, .f32⟩
  | 91 => ⟨S40000x256, .f32⟩
  | 92 => ⟨S40000x256, .f32⟩
  | 93 => ⟨S40000x256, .f32⟩
  | 94 => ⟨S1x256x256, .f32⟩
  | 95 => ⟨S256x256, .f32⟩
  | 96 => ⟨S40000x256, .f32⟩
  | 97 => ⟨S40000x256, .f32⟩
  | 98 => ⟨S320000x1, .f32⟩
  | 99 => ⟨S_, .i32⟩
  | 100 => ⟨S320000, .i32⟩
  | 101 => ⟨S320000, .i1⟩
  | 102 => ⟨S_, .i32⟩
  | 103 => ⟨S320000, .i32⟩
  | 104 => ⟨S320000, .i32⟩
  | 105 => ⟨S320000, .i32⟩
  | 106 => ⟨S320000x1, .i32⟩
  | 107 => ⟨S320000x256, .f32⟩
  | 108 => ⟨S320000x256, .f32⟩
  | 109 => ⟨S320000x256, .f32⟩
  | 110 => ⟨S_, .f32⟩
  | 111 => ⟨S40000x256, .f32⟩
  | 112 => ⟨S320000x1, .i32⟩
  | 113 => ⟨S40000x256, .f32⟩
  | 114 => ⟨S_, .f32⟩
  | 115 => ⟨S40000x256, .f32⟩
  | 116 => ⟨S40000x256, .f32⟩
  | 117 => ⟨S40000x256, .f32⟩
  | 118 => ⟨S1x256x256, .f32⟩
  | 119 => ⟨S256x256, .f32⟩
  | 120 => ⟨S40000x256, .f32⟩
  | 121 => ⟨S40000x256, .f32⟩
  | 122 => ⟨S320000x1, .f32⟩
  | 123 => ⟨S_, .i32⟩
  | 124 => ⟨S320000, .i32⟩
  | 125 => ⟨S320000, .i1⟩
  | 126 => ⟨S_, .i32⟩
  | 127 => ⟨S320000, .i32⟩
  | _ => ⟨S40000x256, .f32⟩

abbrev hbmTy0_1 (i : Nat) : BufTy := match i % 128 with
  | 0 => ⟨S320000, .i32⟩
  | 1 => ⟨S320000, .i32⟩
  | 2 => ⟨S320000x1, .i32⟩
  | 3 => ⟨S320000x256, .f32⟩
  | 4 => ⟨S320000x256, .f32⟩
  | 5 => ⟨S320000x256, .f32⟩
  | 6 => ⟨S_, .f32⟩
  | 7 => ⟨S40000x256, .f32⟩
  | 8 => ⟨S320000x1, .i32⟩
  | 9 => ⟨S40000x256, .f32⟩
  | 10 => ⟨S_, .f32⟩
  | 11 => ⟨S40000x256, .f32⟩
  | 12 => ⟨S40000x256, .f32⟩
  | 13 => ⟨S40000x256, .f32⟩
  | 14 => ⟨S1x256x256, .f32⟩
  | 15 => ⟨S256x256, .f32⟩
  | 16 => ⟨S40000x256, .f32⟩
  | 17 => ⟨S40000x256, .f32⟩
  | 18 => ⟨S1x256, .f32⟩
  | 19 => ⟨S40000x256, .f32⟩
  | 20 => ⟨S40000x256, .f32⟩
  | _ => ⟨S40000x256, .f32⟩

abbrev hbmTy (i : Nat) : BufTy := match i / 128 with
  | 0 => hbmTy0_0 i
  | 1 => hbmTy0_1 i
  | _ => ⟨S40000x256, .f32⟩

abbrev bufTy : (tb : Table) → Fin (tcTables nBuf tb) → BufTy
  | .hbm, ⟨i, _⟩ => hbmTy i
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_14 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_18 : Ref sig .tc := ⟨.hbm, 123, rfl⟩
abbrev main_v94 : Ref sig .tc := ⟨.hbm, 124, rfl⟩
abbrev main_v95 : Ref sig .tc := ⟨.hbm, 125, rfl⟩
abbrev main_c_19 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_20 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S40000 : S_.BroadcastsInDim S40000 (![] : Fin 0 → Fin S40000.rank)
  bcast_S320000_S320000x1_0 : S320000.BroadcastsInDim S320000x1 (![0] : Fin 1 → Fin S320000x1.rank)
  slices_S5x256x256_S1x256x256_0_0_0 : S5x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  bcast_S_S40000x256 : S_.BroadcastsInDim S40000x256 (![] : Fin 0 → Fin S40000x256.rank)
  slices_S5x256x256_S1x256x256_1_0_0 : S5x256x256.Slices ![1, 0, 0] S1x256x256
  slices_S5x256x256_S1x256x256_2_0_0 : S5x256x256.Slices ![2, 0, 0] S1x256x256
  slices_S5x256x256_S1x256x256_3_0_0 : S5x256x256.Slices ![3, 0, 0] S1x256x256
  slices_S5x256x256_S1x256x256_4_0_0 : S5x256x256.Slices ![4, 0, 0] S1x256x256
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  scatter_S40000_S320000x1_S320000_n_0_0_1_wf : ScatterDims.WF S40000 S320000x1 S320000 [] [0] [0] 1
  gather_S40000_S320000x1_S320000_n_0_n_n_0_1_1_wf : GatherDims.WF S40000 S320000x1 S320000 [] [0] [] [0] [] 1 ![1]
  dot_S40000x256_S256x256_S40000x256_1_0_0_1_n_n_wf : DotDims.WF S40000x256 S256x256 S40000x256 [1] [0] [0] [1] [] []
  gather_S40000x256_S320000x1_S320000x256_1_0_n_n_0_1_1256_wf : GatherDims.WF S40000x256 S320000x1 S320000x256 [1] [0] [] [0] [] 1 ![1, 256]
  scatter_S40000x256_S320000x1_S320000x256_1_0_0_1_wf : ScatterDims.WF S40000x256 S320000x1 S320000x256 [1] [0] [0] 1

variable [Facts₀]

def scatter_S40000_S320000x1_S320000_n_0_0_1 : ScatterDims S40000 S320000x1 S320000 where
  updateWindowDims := []
  insertedWindowDims := [0]
  scatterDimsToOperandDims := [0]
  indexVectorDim := 1
  wf := scatter_S40000_S320000x1_S320000_n_0_0_1_wf
def gather_S40000_S320000x1_S320000_n_0_n_n_0_1_1 : GatherDims S40000 S320000x1 S320000 where
  offsetDims := []
  collapsedSliceDims := [0]
  operandBatchingDims := []
  startIndicesBatchingDims := []
  startIndexMap := [0]
  indexVectorDim := 1
  sliceSizes := ![1]
  wf := gather_S40000_S320000x1_S320000_n_0_n_n_0_1_1_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def gather_S40000x256_S320000x1_S320000x256_1_0_n_n_0_1_1256 : GatherDims S40000x256 S320000x1 S320000x256 where
  offsetDims := [1]
  collapsedSliceDims := [0]
  operandBatchingDims := []
  startIndicesBatchingDims := []
  startIndexMap := [0]
  indexVectorDim := 1
  sliceSizes := ![1, 256]
  wf := gather_S40000x256_S320000x1_S320000x256_1_0_n_n_0_1_1256_wf
def scatter_S40000x256_S320000x1_S320000x256_1_0_0_1 : ScatterDims S40000x256 S320000x1 S320000x256 where
  updateWindowDims := [1]
  insertedWindowDims := [0]
  scatterDimsToOperandDims := [0]
  indexVectorDim := 1
  wf := scatter_S40000x256_S320000x1_S320000x256_1_0_0_1_wf

class Facts : Prop extends Facts₀ where

variable [Facts]
-- ==== Proof.HostChain.lean ====
/-
  The host side of the graph convolution, which the kernel's program and the reference share operation for
  operation: from the edge list and the edge weights to the Chebyshev features.

  An edge `e` goes from node `col e` to node `row e`; self loops (`row e = col e`) are dropped by giving them
  weight 0. The degree of a node counts the kept edges that end at it, `d^(-1/2)` is taken as 0 at an isolated node,
  and the scaled Laplacian's value on edge `e` is `lap e = -d^(-1/2)(row e) * w e * d^(-1/2)(col e)`. One
  propagation step `spmm v` gathers the rows `v (col e)`, scales row `e` by `lap e` and adds it into row `row e`
  of a zero matrix. The Chebyshev features are `T₀ = x`, `T₁ = spmm x`, `T_k = 2 * spmm T_(k-1) - T_(k-2)`, and
  order `k` uses slice `k` of the weight tensor as its 256 × 256 matrix. (A node index is read the usual
  way for arrays: a negative one counts from the end, so 40000 is added to it before the gather.)

  Every function here is the composition of the printed host operations, so a stage of either program's run is one
  of these functions of the arguments by unfolding; nothing is proved about them beyond that, and nothing needs to
  be: both programs apply the same functions to the same arguments.
-/
import proofs.«137525_j13288628814252_2_alg».proof.ReferenceIdeal
import proofs.«137525_j13288628814252_2_alg».proof.Proof.Gen.ReferenceIdeal

noncomputable section

namespace Cert.ReferenceIdeal.Chain

open Cert.ReferenceIdeal Cert.ReferenceIdeal.Gen Idealize.ShloMosaic

variable {F : FTy → Type} [FloatOps F]

/-- The end node of every edge: row 0 of the edge list. -/
def row (x1 : IVec S2x320000 32) : IVec S320000 32 :=
  shapeCast S320000 (extractStridedSlice S1x320000 ![0, 0] x1 slices_S2x320000_S1x320000_0_0) shapeCasts_S1x320000_S320000

/-- The start node of every edge: row 1 of the edge list. -/
def col (x1 : IVec S2x320000 32) : IVec S320000 32 :=
  shapeCast S320000 (extractStridedSlice S1x320000 ![1, 0] x1 slices_S2x320000_S1x320000_1_0) shapeCasts_S1x320000_S320000

/-- An edge is kept unless it is a self loop. -/
def keep (x1 : IVec S2x320000 32) : IVec S320000 1 := cmpi .ne (row x1) (col x1)

/-- A node index as the gather reads it: a negative one counts from the end. -/
def wrap (idx : IVec S320000 32) : IVec S320000 32 :=
  select (cmpi .slt idx (broadcastInDim S320000 ![] bcast_S_S320000 (constantI S_ 32 0#32)))
    (addi idx (broadcastInDim S320000 ![] bcast_S_S320000 (constantI S_ 32 40000#32))) idx

/-- The edge weights with the self loops' set to 0. -/
def keptWeight (x1 : IVec S2x320000 32) (x2 : FVec F S320000 .f32) : FVec F S320000 .f32 :=
  select (keep x1) x2 (broadcastInDim S320000 ![] bcast_S_S320000 (id (constant S_ .f32 0x00000000#32)))

/-- The degree of every node: the number of kept edges that end at it. -/
def degree (x1 : IVec S2x320000 32) : FVec F S40000 .f32 :=
  Host.scatterAdd scatter_S40000_S320000x1_S320000_n_0_0_1
    (broadcastInDim S40000 ![] bcast_S_S40000 (constant S_ .f32 0x00000000#32))
    (broadcastInDim S320000x1 ![0] bcast_S320000_S320000x1_0 (row x1))
    (uitofp .f32 (keep x1))

/-- `d^(-1/2)` of every node, 0 where the degree is 0. -/
def degInvSqrt (x1 : IVec S2x320000 32) : FVec F S40000 .f32 :=
  select (cmpf .ogt (degree (F := F) x1) (broadcastInDim S40000 ![] bcast_S_S40000 (constant S_ .f32 0x00000000#32)))
    (Host.rsqrt (maximumf (degree (F := F) x1) (broadcastInDim S40000 ![] bcast_S_S40000 (constant S_ .f32 0x3F800000#32))))
    (broadcastInDim S40000 ![] bcast_S_S40000 (id (constant S_ .f32 0x00000000#32)))

/-- The scaled Laplacian's value on every edge. -/
def lap (x1 : IVec S2x320000 32) (x2 : FVec F S320000 .f32) : FVec F S320000 .f32 :=
  mulf
    (mulf
      (Host.negf (Host.gather gather_S40000_S320000x1_S320000_n_0_n_n_0_1_1 (degInvSqrt (F := F) x1)
        (broadcastInDim S320000x1 ![0] bcast_S320000_S320000x1_0 (wrap (row x1)))))
      (keptWeight x1 x2))
    (Host.gather gather_S40000_S320000x1_S320000_n_0_n_n_0_1_1 (degInvSqrt (F := F) x1)
      (broadcastInDim S320000x1 ![0] bcast_S320000_S320000x1_0 (wrap (col x1))))

/-- One propagation step: the rows of `v` at the edges' start nodes, scaled by the Laplacian's edge values, added
    into the rows of a zero matrix at the edges' end nodes. -/
def spmm (x1 : IVec S2x320000 32) (x2 : FVec F S320000 .f32) (v : FVec F S40000x256 .f32) : FVec F S40000x256 .f32 :=
  Host.scatterAdd scatter_S40000x256_S320000x1_S320000x256_1_0_0_1
    (broadcastInDim S40000x256 ![] bcast_S_S40000x256 (constant S_ .f32 0x00000000#32))
    (broadcastInDim S320000x1 ![0] bcast_S320000_S320000x1_0 (row x1))
    (mulf
      (broadcastInDim S320000x256 ![0, 1] bcast_S320000x1_S320000x256_0_1
        (broadcastInDim S320000x1 ![0] bcast_S320000_S320000x1_0 (lap x1 x2)))
      (Host.gather gather_S40000x256_S320000x1_S320000x256_1_0_n_n_0_1_1256 v
        (broadcastInDim S320000x1 ![0] bcast_S320000_S320000x1_0 (wrap (col x1)))))

/-- One step of the Chebyshev recurrence: `2 * spmm cur - prev`. -/
def step (x1 : IVec S2x320000 32) (x2 : FVec F S320000 .f32) (prev cur : FVec F S40000x256 .f32) : FVec F S40000x256 .f32 :=
  subf (mulf (broadcastInDim S40000x256 ![] bcast_S_S40000x256 (constant S_ .f32 0x40000000#32)) (spmm x1 x2 cur)) prev

/-- The Chebyshev features of orders 1 to 4 (order 0 is the input itself). -/
def T1 (x0 : FVec F S40000x256 .f32) (x1 : IVec S2x320000 32) (x2 : FVec F S320000 .f32) : FVec F S40000x256 .f32 := spmm x1 x2 x0
def T2 (x0 : FVec F S40000x256 .f32) (x1 : IVec S2x320000 32) (x2 : FVec F S320000 .f32) : FVec F S40000x256 .f32 := step x1 x2 x0 (T1 x0 x1 x2)
def T3 (x0 : FVec F S40000x256 .f32) (x1 : IVec S2x320000 32) (x2 : FVec F S320000 .f32) : FVec F S40000x256 .f32 := step x1 x2 (T1 x0 x1 x2) (T2 x0 x1 x2)
def T4 (x0 : FVec F S40000x256 .f32) (x1 : IVec S2x320000 32) (x2 : FVec F S320000 .f32) : FVec F S40000x256 .f32 := step x1 x2 (T2 x0 x1 x2) (T3 x0 x1 x2)

/-- Slice `k` of the weight tensor as a 256 × 256 matrix. -/
def w0 (x3 : FVec F S5x256x256 .f32) : FVec F S256x256 .f32 :=
  shapeCast S256x256 (extractStridedSlice S1x256x256 ![0, 0, 0] x3 slices_S5x256x256_S1x256x256_0_0_0) shapeCasts_S1x256x256_S256x256
def w1 (x3 : FVec F S5x256x256 .f32) : FVec F S256x256 .f32 :=
  shapeCast S256x256 (extractStridedSlice S1x256x256 ![1, 0, 0] x3 slices_S5x256x256_S1x256x256_1_0_0) shapeCasts_S1x256x256_S256x256
def w2 (x3 : FVec F S5x256x256 .f32) : FVec F S256x256 .f32 :=
  shapeCast S256x256 (extractStridedSlice S1x256x256 ![2, 0, 0] x3 slices_S5x256x256_S1x256x256_2_0_0) shapeCasts_S1x256x256_S256x256
def w3 (x3 : FVec F S5x256x256 .f32) : FVec F S256x256 .f32 :=
  shapeCast S256x256 (extractStridedSlice S1x256x256 ![3, 0, 0] x3 slices_S5x256x256_S1x256x256_3_0_0) shapeCasts_S1x256x256_S256x256
def w4 (x3 : FVec F S5x256x256 .f32) : FVec F S256x256 .f32 :=
  shapeCast S256x256 (extractStridedSlice S1x256x256 ![4, 0, 0] x3 slices_S5x256x256_S1x256x256_4_0_0) shapeCasts_S1x256x256_S256x256

end Cert.ReferenceIdeal.Chain

end
-- ==== Proof.Spec.lean ====
/-
  One Chebyshev order's contribution to a graph convolution, entry by entry over the extended reals.

  The layer's output on N = 40000 nodes and 256 channels is
      out = T₀·W₀ + T₁·W₁ + T₂·W₂ + T₃·W₃ + T₄·W₄ + bias,
  summed in this order, where T_k is the k-th Chebyshev polynomial of the scaled graph Laplacian applied to the
  input features and W_k a 256 × 256 weight matrix. Each product is read entry by entry: the entry of `T·W` at
  node `q` and channel `o` is the sum over the shared axis `c` of `T (q, c) * W (c, o)`. Nothing here needs the
  entries to be finite: only sums and products of the same terms, in the same order, appear on both sides.
-/
import Idealize.ShloMosaic.PureOps.Ideal
import Idealize.ShloMosaic.Lib.ValueIdx
import Idealize.ShloMosaic.Lib.Pipeline.Value

noncomputable section

namespace Cert.ChebSpec

open Idealize.ShloMosaic Idealize.ShloMosaic.ValueIdx

/-- Node features: 40000 nodes by 256 channels. -/
abbrev SN : Shape := ⟨2, ![40000, 256]⟩
/-- One order's weight matrix. -/
abbrev SW : Shape := ⟨2, ![256, 256]⟩
/-- The bias laid out as one row. -/
abbrev SB : Shape := ⟨2, ![1, 256]⟩

/-- The matrix product `T·W` at node `i 0` and channel `i 1`: the sum over the shared channel axis. -/
def prod (T : SN.Idx → EReal) (W : SW.Idx → EReal) : SN.Idx → EReal :=
  fun i => ∑ c : Fin 256, T (ix2 (i 0) c) * W (ix2 c (i 1))

theorem prod_ix2 (T : SN.Idx → EReal) (W : SW.Idx → EReal) (q : Fin 40000) (o : Fin 256) :
    prod T W (ix2 q o) = ∑ c : Fin 256, T (ix2 q c) * W (ix2 c o) := rfl

/-- A running total plus one more order's product. -/
def accum (A T : SN.Idx → EReal) (W : SW.Idx → EReal) : SN.Idx → EReal :=
  fun i => A i + prod T W i

/-- The last order: the running total plus the product, then the bias of the entry's channel. -/
def accumBias (A T : SN.Idx → EReal) (W : SW.Idx → EReal) (b : SB.Idx → EReal) : SN.Idx → EReal :=
  fun i => A i + prod T W i + b (ix2 0 (i 1))

/-- The bias vector as the row the last order reads: entry `(0, o)` is the bias of channel `o`. -/
def biasRow (b : (⟨1, ![256]⟩ : Shape).Idx → EReal) : SB.Idx → EReal := fun i => b (ix1 (i 1))

/-- A vector of 256 entries reshaped to one row is that row: position `o` of the vector is position `0 * 256 + o`
    of the row. -/
theorem reshape_row (b : (⟨1, ![256]⟩ : Shape).Idx → EReal) (h : (⟨1, ![256]⟩ : Shape).ShapeCasts SB) :
    shapeCast SB b h = biasRow b := by
  funext i
  obtain ⟨z, o, rfl⟩ : ∃ (z : Fin 1) (o : Fin 256), i = ix2 z o := ⟨i 0, i 1, eq_ix2 i⟩
  refine shapeCast_apply b h (ix2 z o) (ix1 o) ?_
  rw [Shape.rowMajor_val_one, Shape.rowMajor_val_two]
  have hz : z.val < 1 := z.isLt
  show o.val = z.val * 256 + o.val
  omega

/-- Equal arrays give equal running totals. -/
theorem accum_congr {A A' T T' : SN.Idx → EReal} {W W' : SW.Idx → EReal} (hA : A = A') (hT : T = T') (hW : W = W') :
    accum A T W = accum A' T' W' := by
  subst hA hT hW; rfl

theorem accumBias_congr {A A' T T' : SN.Idx → EReal} {W W' : SW.Idx → EReal} {b b' : SB.Idx → EReal}
    (hA : A = A') (hT : T = T') (hW : W = W') (hb : b = b') : accumBias A T W b = accumBias A' T' W' b' := by
  subst hA hT hW hb; rfl

end Cert.ChebSpec

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«137525_j13288628814252_2_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.RefValue.lean ====
/-
  The reference's result, entry by entry over the extended reals.

  The reference computes `((((x·W₀ + T₁·W₁) + T₂·W₂) + T₃·W₃) + T₄·W₄) + bias`, each product a host
  `dot_general` contracting the channel axis of the features with the first axis of the weight, the bias copied to
  a row and then down the 40000 rows. At exact arithmetic a `dot_general` entry is the plain sum over the shared
  axis, so the result at node `q` and channel `o` is the left-to-right sum of the five sums plus the bias of
  channel `o`: the nested running totals of the specification.
-/
import proofs.«137525_j13288628814252_2_alg».proof.Proof.RefRun
import proofs.«137525_j13288628814252_2_alg».proof.Proof.HostChain
import proofs.«137525_j13288628814252_2_alg».proof.Proof.Spec
import proofs.«137525_j13288628814252_2_alg».proof.Proof.LibPlainMatmul
import proofs.«137525_j13288628814252_2_alg».proof.Proof.LibPlainHostProduct
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Chain Idealize.ShloMosaic Idealize.ShloMosaic.TcCoe
  Idealize.ShloMosaic.ValueIdx Idealize.SL.Sem
open Cert.ChebSpec (prod accum accumBias biasRow)

variable {F : FTy → Type} [FloatOps F]

/-- The reference's result as the host operations of the shared chain: five products added left to right, then
    the bias. -/
def refOut (x0 : FVec F S40000x256 .f32) (x1 : IVec S2x320000 32) (x2 : FVec F S320000 .f32)
    (x3 : FVec F S5x256x256 .f32) (x4 : FVec F S256 .f32) : FVec F S40000x256 .f32 :=
  addf
    (addf
      (addf
        (addf
          (addf (Host.dotGeneral dot_S40000x256_S256x256_S40000x256_1_0_0_1_n_n none x0 (w0 x3))
            (Host.dotGeneral dot_S40000x256_S256x256_S40000x256_1_0_0_1_n_n none (T1 x0 x1 x2) (w1 x3)))
          (Host.dotGeneral dot_S40000x256_S256x256_S40000x256_1_0_0_1_n_n none (T2 x0 x1 x2) (w2 x3)))
        (Host.dotGeneral dot_S40000x256_S256x256_S40000x256_1_0_0_1_n_n none (T3 x0 x1 x2) (w3 x3)))
      (Host.dotGeneral dot_S40000x256_S256x256_S40000x256_1_0_0_1_n_n none (T4 x0 x1 x2) (w4 x3)))
    (broadcastInDim S40000x256 ![0, 1] bcast_S1x256_S40000x256_0_1 (broadcastInDim S1x256 ![1] bcast_S256_S1x256_1 x4))

/-- The run's composed term is that function of the arguments. -/
theorem res_eq (m : (ℓ : Loc nD τ sig) → Buf (Elt F) ℓ) (c : Dev nD) :
    Cert.ReferenceIdeal.ValueP.res_main_v115 m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  unfold Cert.ReferenceIdeal.ValueP.res_main_v115
  rfl

/-- A host product of node features and a weight matrix at `(q, o)`: the sum over the shared channel axis. -/
theorem hostProd_apply (A : FVec Ideal S40000x256 .f32) (B : FVec Ideal S256x256 .f32) (q : Fin 40000) (o : Fin 256) :
    Host.dotGeneral dot_S40000x256_S256x256_S40000x256_1_0_0_1_n_n none A B (ix2 q o)
      = ∑ c : Fin 256, A (ix2 q c) * B (ix2 c o) :=
  Cert.PointConv.plainDotGeneral_apply (R := 40000) (n := 256) (k := 256)
    dot_S40000x256_S256x256_S40000x256_1_0_0_1_n_n_wf none .single A B q o

/-- The bias laid out as a row and copied down the rows, at `(q, o)`: the bias of channel `o`. -/
theorem biasCopy_apply (x4 : FVec Ideal S256 .f32) (q : Fin 40000) (o : Fin 256) :
    broadcastInDim S40000x256 ![0, 1] bcast_S1x256_S40000x256_0_1 (broadcastInDim S1x256 ![1] bcast_S256_S1x256_1 x4) (ix2 q o)
      = x4 (ix1 o) := by
  refine (broadcastInDim_apply ![0, 1] bcast_S1x256_S40000x256_0_1 _ (ix2 q o) (ix2 0 o) (fun a => by
    match a with
    | ⟨0, _⟩ => rfl
    | ⟨1, _⟩ => rfl)).trans ?_
  exact broadcastInDim_apply ![1] bcast_S256_S1x256_1 x4 (ix2 0 o) (ix1 o) (fun a => by
    match a with
    | ⟨0, _⟩ => rfl)

/-- The reference's result is the nested running totals of the specification. -/
theorem refOut_eq (x0 : FVec Ideal S40000x256 .f32) (x1 : IVec S2x320000 32) (x2 : FVec Ideal S320000 .f32)
    (x3 : FVec Ideal S5x256x256 .f32) (x4 : FVec Ideal S256 .f32) :
    refOut x0 x1 x2 x3 x4
      = accumBias (accum (accum (accum (prod x0 (w0 x3)) (T1 x0 x1 x2) (w1 x3)) (T2 x0 x1 x2) (w2 x3)) (T3 x0 x1 x2) (w3 x3))
          (T4 x0 x1 x2) (w4 x3) (biasRow x4) := by
  funext i
  obtain ⟨q, o, rfl⟩ : ∃ (q : Fin 40000) (o : Fin 256), i = ix2 q o := ⟨i 0, i 1, eq_ix2 i⟩
  unfold refOut
  rw [addf_apply, addf_apply, addf_apply, addf_apply, addf_apply, hostProd_apply, hostProd_apply, hostProd_apply,
    hostProd_apply, hostProd_apply, biasCopy_apply]
  rfl

end Cert.ReferenceIdeal.RefValue

end
-- ==== Proof.KernelRun.lean ====
/-
  The kernel program's run with its result named.

  The program is fourteen segments — stretches of host operations and five kernel regions — and the library's launch
  theorem for such a chain says: from any memory with zero counters every weakly fair execution terminates, nothing
  faults, and at the end every unscoped buffer of a core holds what the fold of the segments leaves there (each host
  stretch's operations applied in order, each region's arrays at what its write-backs leave). Read at the argument
  buffers that is the launch contents; read at the result buffer it is what the last region leaves, which the
  boundary facts then identify.
-/
import proofs.«137525_j13288628814252_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at what the last
    region leaves in it, and the argument buffers end as launched. -/
theorem run : θ_run defs (onTc (τ := τ) (main (F := F))) ⟨m, fun _ => 0, ρ⟩ (fun r => ∀ c : Dev nD,
      r.2.mem ((c.tc : Thread nD τ).loc main_v109) = W14 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v109 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c)⟩)

end Cert.KernelIdeal.NamedRun

end
-- ==== Proof.Payload.lean ====
/-
  What each kernel body stores, read at one entry of its block, over the extended reals.

  Every body takes a block of 4000 rows of a feature matrix `T` and the whole 256 × 256 weight `W`, narrows both
  to bf16 (at exact arithmetic a change of format is the identity) and multiplies them into a zero accumulator: at
  row `q` and channel `o` of the block that is the sum over the shared axis `c` of `T (q, c) * W (c, o)`. The
  first body stores the product; the next three add it to the block of the running total they were given; the last
  one also adds the bias, a single row copied down the 4000 rows, so entry `(q, o)` gets the bias of channel `o`.
-/
import proofs.«137525_j13288628814252_2_alg».proof.Proof.Gen.KernelIdeal.Skeleton
import proofs.«137525_j13288628814252_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- A block of 4000 rows times the weight, into the zero matrix, at `(q, o)`: the sum over the shared axis. -/
theorem blockProd_apply {φ₁ φ₂ : FTy} (A : FVec Ideal S4000x256 φ₁) (B : FVec Ideal S256x256 φ₂) (q : Fin 4000) (o : Fin 256) :
    matmul dot_S4000x256_S256x256_S4000x256_1_0_0_1_n_n none A B (constant (F := Ideal) S4000x256 .f32 0x00000000#32) (ix2 q o)
      = ∑ c : Fin 256, A (ix2 q c) * B (ix2 c o) :=
  Cert.PointConv.plainMatmul_zero_apply (R := 4000) (n := 256) (k := 256)
    dot_S4000x256_S256x256_S4000x256_1_0_0_1_n_n.wf none A B q o

/-- One row copied down 4000 rows, at `(q, o)`: the row's entry of channel `o`. -/
theorem rowCopy_apply (b : FVec Ideal S1x256 .f32) (q : Fin 4000) (o : Fin 256) :
    broadcastTo S4000x256 b broadcasts_S1x256_S4000x256 (ix2 q o) = b (ix2 0 o) :=
  broadcastTo_apply b broadcasts_S1x256_S4000x256 (ix2 q o) (ix2 0 o) (fun a => by
    match a with
    | ⟨0, _⟩ => rfl
    | ⟨1, _⟩ => rfl)

/-- The first body stores the product of its feature block and the weight. -/
theorem init_apply (x0 : Vec Ideal S4000x256 .f32) (x1 : Vec Ideal S256x256 .f32) (q : Fin 4000) (o : Fin 256) :
    k0_pay1 x0 x1 (ix2 q o) = ∑ c : Fin 256, x0 (ix2 q c) * x1 (ix2 c o) := by
  unfold k0_pay1
  refine (blockProd_apply _ _ q o).trans ?_
  refine Finset.sum_congr rfl fun c _ => ?_
  rw [truncf_apply, truncf_apply, shapeCast_self]

/-- The middle bodies store the running total's block plus the product. -/
theorem accum1_apply (x0 : Vec Ideal S4000x256 .f32) (x1 : Vec Ideal S256x256 .f32) (x3 : Vec Ideal S4000x256 .f32)
    (q : Fin 4000) (o : Fin 256) :
    k1_pay1 x0 x1 x3 (ix2 q o) = x3 (ix2 q o) + ∑ c : Fin 256, x0 (ix2 q c) * x1 (ix2 c o) := by
  unfold k1_pay1
  rw [addf_apply, shapeCast_self]
  refine congrArg (x3 (ix2 q o) + ·) ((blockProd_apply _ _ q o).trans ?_)
  refine Finset.sum_congr rfl fun c _ => ?_
  rw [truncf_apply, truncf_apply, shapeCast_self, shapeCast_self]

theorem accum2_apply (x0 : Vec Ideal S4000x256 .f32) (x1 : Vec Ideal S256x256 .f32) (x3 : Vec Ideal S4000x256 .f32)
    (q : Fin 4000) (o : Fin 256) :
    k2_pay1 x0 x1 x3 (ix2 q o) = x3 (ix2 q o) + ∑ c : Fin 256, x0 (ix2 q c) * x1 (ix2 c o) := by
  unfold k2_pay1
  rw [addf_apply, shapeCast_self]
  refine congrArg (x3 (ix2 q o) + ·) ((blockProd_apply _ _ q o).trans ?_)
  refine Finset.sum_congr rfl fun c _ => ?_
  rw [truncf_apply, truncf_apply, shapeCast_self, shapeCast_self]

theorem accum3_apply (x0 : Vec Ideal S4000x256 .f32) (x1 : Vec Ideal S256x256 .f32) (x3 : Vec Ideal S4000x256 .f32)
    (q : Fin 4000) (o : Fin 256) :
    k3_pay1 x0 x1 x3 (ix2 q o) = x3 (ix2 q o) + ∑ c : Fin 256, x0 (ix2 q c) * x1 (ix2 c o) := by
  unfold k3_pay1
  rw [addf_apply, shapeCast_self]
  refine congrArg (x3 (ix2 q o) + ·) ((blockProd_apply _ _ q o).trans ?_)
  refine Finset.sum_congr rfl fun c _ => ?_
  rw [truncf_apply, truncf_apply, shapeCast_self, shapeCast_self]

/-- The last body stores the running total's block plus the product plus the bias row copied down the rows. -/
theorem accumBias_apply (x0 : Vec Ideal S4000x256 .f32) (x1 : Vec Ideal S256x256 .f32) (x3 : Vec Ideal S4000x256 .f32)
    (x2 : Vec Ideal S1x256 .f32) (q : Fin 4000) (o : Fin 256) :
    k4_pay1 x0 x1 x3 x2 (ix2 q o)
      = x3 (ix2 q o) + (∑ c : Fin 256, x0 (ix2 q c) * x1 (ix2 c o)) + x2 (ix2 0 o) := by
  unfold k4_pay1
  rw [addf_apply, addf_apply, rowCopy_apply]
  simp only [shapeCast_self]
  refine congrArg (x3 (ix2 q o) + · + x2 (ix2 0 o)) ((blockProd_apply _ _ q o).trans ?_)
  refine Finset.sum_congr rfl fun c _ => ?_
  rw [truncf_apply, truncf_apply]

end Cert.KernelIdeal.Payload

end
-- ==== Proof.Region0.lean ====
/-
  What region 0 of the program leaves in its output array, as one function of the arrays it finds.

  The region runs its body at 10 grid points. Point `t` is given rows `4000 t … 4000 t + 3999` of the input features
  and the whole weight matrix of order 0; it writes the same rows of the output. So the entry of the output at node
  `4000 t + q` and channel `o` is the sum over `c` of the features at `(4000 t + q, c)` times the weight at `(c, o)`:
  the blocks are restrictions of one whole-array function, and the ten row blocks cover all 40000 rows (row `r` is
  in the block of point `r / 4000`).
-/
import proofs.«137525_j13288628814252_2_alg».proof.Proof.Gen.KernelIdeal.Frame
import proofs.«137525_j13288628814252_2_alg».proof.Proof.Payload
import proofs.«137525_j13288628814252_2_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature block and the output block of point `t` sit at row block `t`
    and column block 0, and the weight is always its one whole block. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem index_onto : ∀ r : Fin 10, ∃ t : Fin cfg0.N, win0_2.index t = ![r.val, 0] :=
  (by decide +kernel : ∀ r : Fin 10, ∃ t : Fin grid0.N, win0_2.index t = ![r.val, 0])

/-- One entry of what a point stores: if the blocks it was given agree with the arrays `T`, `W` along the row and the
    column of the entry, it is the product there. -/
theorem point_value (x0 : Vec Ideal S4000x256 .f32) (x1 : Vec Ideal S256x256 .f32)
    (T : Cert.ChebSpec.SN.Idx → EReal) (W : Cert.ChebSpec.SW.Idx → EReal) (j : S4000x256.Idx) (i : Cert.ChebSpec.SN.Idx)
    (h0 : ∀ k : Fin 256, x0 (ix2 (j 0) k) = T (ix2 (i 0) k))
    (h1 : ∀ k : Fin 256, x1 (ix2 k (j 1)) = W (ix2 k (i 1))) :
    k0_pay1 x0 x1 j = Cert.ChebSpec.prod T W i := by
  refine (congrArg (k0_pay1 x0 x1) (eq_ix2 j)).trans ((Payload.init_apply x0 x1 (j 0) (j 1)).trans ?_)
  exact Finset.sum_congr rfl fun k _ => congrArg₂ (· * ·) (h0 k) (h1 k)

/-- What point `t` writes back is block `t` of the product, of the arrays as the region finds them. -/
theorem flushed_eq (c : Dev nD) (t : Fin cfg0.N) :
    (dat0 V c).flushed 2 t = ((cfg0.win 2).blk t).view.read (Elt Ideal)
      (Cert.ChebSpec.prod (V c main_arg0) (V c main_v35)) := by
  show (cfg0.win 2).cut (grid0.coords t) ((dat0 V c).after 2 t) = _
  rw [after0_2]
  unfold out0_2
  rw [View.canon_unit_zero origin]
  simp only [View.ld_unit_zero (S := S4000x256) origin, View.ld_unit_zero (S := S256x256) origin]
  obtain ⟨e00, e01, e10, e11, e21, -⟩ := index_maps t
  funext j
  show k0_pay1 (iblk0 V c 0 t) (iblk0 V c 1 t) j
    = Cert.ChebSpec.prod (V c main_arg0) (V c main_v35) (((cfg0.win 2).blk t).view.emb j)
  refine point_value (iblk0 V c 0 t) (iblk0 V c 1 t) (V c main_arg0) (V c main_v35) j
    (((cfg0.win 2).blk t).view.emb j) ?_ ?_
  · intro k
    show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * k.val = k.val; omega
  · intro k
    show V c main_v35 (((cfg0.win 1).blk t).view.emb (ix2 k (j 1))) = V c main_v35 (ix2 k ((((cfg0.win 2).blk t).view.emb j) 1))
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An entry of the output array is in point `t`'s block iff each coordinate is in the block's range on its axis. -/
theorem mem_block (t : Fin cfg0.N) (i : S40000x256.Idx) :
    i ∈ ((cfg0.win 2).blk t).view.set ↔ ∀ a : Fin 2, win0_2.index t a * S4000x256.size a ≤ (i a).val
      ∧ (i a).val < win0_2.index t a * S4000x256.size a + S4000x256.size a := by
  show i ∈ ((View.whole main_v36).slice (win0_2.rect t)).set ↔ _
  rw [View.set_slice_whole, Rect.mem_set_unit]
  exact Iff.rfl

/-- The ten row blocks cover the array: row `r` lies in the block of the point whose row block is `r / 4000`. -/
theorem covered (i : S40000x256.Idx) :
    ∃ t : Fin cfg0.N, (cfg0.win 2).flush t = true ∧ i ∈ ((cfg0.win 2).blk t).view.set := by
  have hi0 : (i 0).val < 40000 := (i 0).isLt
  have hi1 : (i 1).val < 256 := (i 1).isLt
  obtain ⟨t, ht⟩ := index_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 256 ≤ (i 1).val ∧ (i 1).val < win0_2.index t (1 : Fin 2) * 256 + 256; omega

/-- The output array after the region: the product of the input features and the weight of order 0, of the arrays
    as the region finds them. -/
theorem value (c : Dev nD) :
    (dat0 V c).arrAt 2 cfg0.N = Cert.ChebSpec.prod (V c main_arg0) (V c main_v35) :=
  (dat0 V c).arrAt_eq_of_cover 2 _ (fun t _ => flushed_eq V c t) covered

end Cert.KernelIdeal.Region0

end
-- ==== Proof.Region1.lean ====
/-
  What region 1 of the program leaves in its output array, as one function of the arrays it finds.

  The region runs its body at 10 grid points. Point `t` is given rows `4000 t … 4000 t + 3999` of the feature matrix
  and of the running total, and the whole weight matrix; it writes the same rows of the output. So the entry of the
  output at node `4000 t + q` and channel `o` is the running total there plus the sum over `c` of the feature
  matrix at `(4000 t + q, c)` times the weight at `(c, o)`: the blocks are restrictions of one whole-array function,
  and the ten row blocks cover all 40000 rows (row `r` is in the block of point `r / 4000`).
-/
import proofs.«137525_j13288628814252_2_alg».proof.Proof.Gen.KernelIdeal.Frame
import proofs.«137525_j13288628814252_2_alg».proof.Proof.Payload
import proofs.«137525_j13288628814252_2_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature block, the running total's block and the output block of
    point `t` all sit at row block `t` and column block 0, and the weight is always its one whole block. -/
theorem index_maps : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_3.index t (0 : Fin 2) = win1_4.index t (0 : Fin 2) ∧ win1_3.index t (1 : Fin 2) = 0
    ∧ win1_4.index t (1 : Fin 2) = 0 ∧ win1_4.index t (0 : Fin 2) ≤ 9 :=
  (by decide +kernel : ∀ t : Fin grid1.N, _)

/-- Every row block is some point's. -/
theorem index_onto : ∀ r : Fin 10, ∃ t : Fin cfg1.N, win1_4.index t = ![r.val, 0] :=
  (by decide +kernel : ∀ r : Fin 10, ∃ t : Fin grid1.N, win1_4.index t = ![r.val, 0])

/-- One entry of what a point stores: if the blocks it was given agree with the arrays `A`, `T`, `W` along the row
    and the column of the entry, it is the running total plus the product there. -/
theorem point_value (x0 : Vec Ideal S4000x256 .f32) (x1 : Vec Ideal S256x256 .f32) (x3 : Vec Ideal S4000x256 .f32)
    (A T : Cert.ChebSpec.SN.Idx → EReal) (W : Cert.ChebSpec.SW.Idx → EReal) (j : S4000x256.Idx) (i : Cert.ChebSpec.SN.Idx)
    (h3 : x3 j = A i)
    (h0 : ∀ k : Fin 256, x0 (ix2 (j 0) k) = T (ix2 (i 0) k))
    (h1 : ∀ k : Fin 256, x1 (ix2 k (j 1)) = W (ix2 k (i 1))) :
    k1_pay1 x0 x1 x3 j = Cert.ChebSpec.accum A T W i := by
  refine (congrArg (k1_pay1 x0 x1 x3) (eq_ix2 j)).trans ((Payload.accum1_apply x0 x1 x3 (j 0) (j 1)).trans ?_)
  have e3 : x3 (ix2 (j 0) (j 1)) = A i := (congrArg x3 (eq_ix2 j)).symm.trans h3
  exact congrArg₂ (· + ·) e3 (Finset.sum_congr rfl fun k _ => congrArg₂ (· * ·) (h0 k) (h1 k))

/-- What point `t` writes back is block `t` of the running total plus the product, of the arrays as the region
    finds them. -/
theorem flushed_eq (c : Dev nD) (t : Fin cfg1.N) :
    (dat1 V c).flushed 4 t = ((cfg1.win 4).blk t).view.read (Elt Ideal)
      (Cert.ChebSpec.accum (V c main_v36) (V c main_v49) (V c main_v51)) := by
  show (cfg1.win 4).cut (grid1.coords t) ((dat1 V c).after 4 t) = _
  rw [after1_4]
  unfold out1_4
  rw [View.canon_unit_zero origin]
  simp only [View.ld_unit_zero (S := S4000x256) origin, View.ld_unit_zero (S := S256x256) origin]
  obtain ⟨e00, e01, e10, e11, e30, e31, e41, -⟩ := index_maps t
  funext j
  show k1_pay1 (iblk1 V c 0 t) (iblk1 V c 1 t) (iblk1 V c 3 t) j
    = Cert.ChebSpec.accum (V c main_v36) (V c main_v49) (V c main_v51) (((cfg1.win 4).blk t).view.emb j)
  refine point_value (iblk1 V c 0 t) (iblk1 V c 1 t) (iblk1 V c 3 t) (V c main_v36) (V c main_v49) (V c main_v51) j
    (((cfg1.win 4).blk t).view.emb j) ?_ ?_ ?_
  · show V c main_v36 (((cfg1.win 3).blk t).view.emb j) = V c main_v36 (((cfg1.win 4).blk t).view.emb j)
    refine congrArg _ (funext fun a => Fin.ext ?_)
    match a with
    | ⟨0, _⟩ => show win1_3.index t (0 : Fin 2) * 4000 + 1 * (j 0).val = win1_4.index t (0 : Fin 2) * 4000 + 1 * (j 0).val; omega
    | ⟨1, _⟩ => show win1_3.index t (1 : Fin 2) * 256 + 1 * (j 1).val = win1_4.index t (1 : Fin 2) * 256 + 1 * (j 1).val; omega
  · intro k
    show V c main_v49 (((cfg1.win 0).blk t).view.emb (ix2 (j 0) k)) = V c main_v49 (ix2 ((((cfg1.win 4).blk t).view.emb j) 0) k)
    refine congrArg _ (funext fun a => Fin.ext ?_)
    match a with
    | ⟨0, _⟩ => show win1_0.index t (0 : Fin 2) * 4000 + 1 * (j 0).val = win1_4.index t (0 : Fin 2) * 4000 + 1 * (j 0).val; omega
    | ⟨1, _⟩ => show win1_0.index t (1 : Fin 2) * 256 + 1 * k.val = k.val; omega
  · intro k
    show V c main_v51 (((cfg1.win 1).blk t).view.emb (ix2 k (j 1))) = V c main_v51 (ix2 k ((((cfg1.win 4).blk t).view.emb j) 1))
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * (j 1).val = win1_4.index t (1 : Fin 2) * 256 + 1 * (j 1).val; omega

/-- An entry of the output array is in point `t`'s block iff each coordinate is in the block's range on its axis. -/
theorem mem_block (t : Fin cfg1.N) (i : S40000x256.Idx) :
    i ∈ ((cfg1.win 4).blk t).view.set ↔ ∀ a : Fin 2, win1_4.index t a * S4000x256.size a ≤ (i a).val
      ∧ (i a).val < win1_4.index t a * S4000x256.size a + S4000x256.size a := by
  show i ∈ ((View.whole main_v52).slice (win1_4.rect t)).set ↔ _
  rw [View.set_slice_whole, Rect.mem_set_unit]
  exact Iff.rfl

/-- The ten row blocks cover the array: row `r` lies in the block of the point whose row block is `r / 4000`. -/
theorem covered (i : S40000x256.Idx) :
    ∃ t : Fin cfg1.N, (cfg1.win 4).flush t = true ∧ i ∈ ((cfg1.win 4).blk t).view.set := by
  have hi0 : (i 0).val < 40000 := (i 0).isLt
  have hi1 : (i 1).val < 256 := (i 1).isLt
  obtain ⟨t, ht⟩ := index_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 256 ≤ (i 1).val ∧ (i 1).val < win1_4.index t (1 : Fin 2) * 256 + 256; omega

/-- The output array after the region: the running total plus the product of the feature matrix and the weight, of
    the arrays as the region finds them. -/
theorem value (c : Dev nD) :
    (dat1 V c).arrAt 4 cfg1.N = Cert.ChebSpec.accum (V c main_v36) (V c main_v49) (V c main_v51) :=
  (dat1 V c).arrAt_eq_of_cover 4 _ (fun t _ => flushed_eq V c t) covered

end Cert.KernelIdeal.Region1

end
-- ==== Proof.Region2.lean ====
/-
  What region 2 of the program leaves in its output array, as one function of the arrays it finds.

  The region runs its body at 10 grid points. Point `t` is given rows `4000 t … 4000 t + 3999` of the feature matrix
  and of the running total, and the whole weight matrix; it writes the same rows of the output. So the entry of the
  output at node `4000 t + q` and channel `o` is the running total there plus the sum over `c` of the feature
  matrix at `(4000 t + q, c)` times the weight at `(c, o)`: the blocks are restrictions of one whole-array function,
  and the ten row blocks cover all 40000 rows (row `r` is in the block of point `r / 4000`).
-/
import proofs.«137525_j13288628814252_2_alg».proof.Proof.Gen.KernelIdeal.Frame
import proofs.«137525_j13288628814252_2_alg».proof.Proof.Payload
import proofs.«137525_j13288628814252_2_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature block, the running total's block and the output block of
    point `t` all sit at row block `t` and column block 0, and the weight is always its one whole block. -/
theorem index_maps : ∀ t : Fin cfg2.N,
    win2_0.index t (0 : Fin 2) = win2_4.index t (0 : Fin 2) ∧ win2_0.index t (1 : Fin 2) = 0
    ∧ win2_1.index t (0 : Fin 2) = 0 ∧ win2_1.index t (1 : Fin 2) = 0
    ∧ win2_3.index t (0 : Fin 2) = win2_4.index t (0 : Fin 2) ∧ win2_3.index t (1 : Fin 2) = 0
    ∧ win2_4.index t (1 : Fin 2) = 0 ∧ win2_4.index t (0 : Fin 2) ≤ 9 :=
  (by decide +kernel : ∀ t : Fin grid2.N, _)

/-- Every row block is some point's. -/
theorem index_onto : ∀ r : Fin 10, ∃ t : Fin cfg2.N, win2_4.index t = ![r.val, 0] :=
  (by decide +kernel : ∀ r : Fin 10, ∃ t : Fin grid2.N, win2_4.index t = ![r.val, 0])

/-- One entry of what a point stores: if the blocks it was given agree with the arrays `A`, `T`, `W` along the row
    and the column of the entry, it is the running total plus the product there. -/
theorem point_value (x0 : Vec Ideal S4000x256 .f32) (x1 : Vec Ideal S256x256 .f32) (x3 : Vec Ideal S4000x256 .f32)
    (A T : Cert.ChebSpec.SN.Idx → EReal) (W : Cert.ChebSpec.SW.Idx → EReal) (j : S4000x256.Idx) (i : Cert.ChebSpec.SN.Idx)
    (h3 : x3 j = A i)
    (h0 : ∀ k : Fin 256, x0 (ix2 (j 0) k) = T (ix2 (i 0) k))
    (h1 : ∀ k : Fin 256, x1 (ix2 k (j 1)) = W (ix2 k (i 1))) :
    k2_pay1 x0 x1 x3 j = Cert.ChebSpec.accum A T W i := by
  refine (congrArg (k2_pay1 x0 x1 x3) (eq_ix2 j)).trans ((Payload.accum2_apply x0 x1 x3 (j 0) (j 1)).trans ?_)
  have e3 : x3 (ix2 (j 0) (j 1)) = A i := (congrArg x3 (eq_ix2 j)).symm.trans h3
  exact congrArg₂ (· + ·) e3 (Finset.sum_congr rfl fun k _ => congrArg₂ (· * ·) (h0 k) (h1 k))

/-- What point `t` writes back is block `t` of the running total plus the product, of the arrays as the region
    finds them. -/
theorem flushed_eq (c : Dev nD) (t : Fin cfg2.N) :
    (dat2 V c).flushed 4 t = ((cfg2.win 4).blk t).view.read (Elt Ideal)
      (Cert.ChebSpec.accum (V c main_v52) (V c main_v68) (V c main_v70)) := by
  show (cfg2.win 4).cut (grid2.coords t) ((dat2 V c).after 4 t) = _
  rw [after2_4]
  unfold out2_4
  rw [View.canon_unit_zero origin]
  simp only [View.ld_unit_zero (S := S4000x256) origin, View.ld_unit_zero (S := S256x256) origin]
  obtain ⟨e00, e01, e10, e11, e30, e31, e41, -⟩ := index_maps t
  funext j
  show k2_pay1 (iblk2 V c 0 t) (iblk2 V c 1 t) (iblk2 V c 3 t) j
    = Cert.ChebSpec.accum (V c main_v52) (V c main_v68) (V c main_v70) (((cfg2.win 4).blk t).view.emb j)
  refine point_value (iblk2 V c 0 t) (iblk2 V c 1 t) (iblk2 V c 3 t) (V c main_v52) (V c main_v68) (V c main_v70) j
    (((cfg2.win 4).blk t).view.emb j) ?_ ?_ ?_
  · show V c main_v52 (((cfg2.win 3).blk t).view.emb j) = V c main_v52 (((cfg2.win 4).blk t).view.emb j)
    refine congrArg _ (funext fun a => Fin.ext ?_)
    match a with
    | ⟨0, _⟩ => show win2_3.index t (0 : Fin 2) * 4000 + 1 * (j 0).val = win2_4.index t (0 : Fin 2) * 4000 + 1 * (j 0).val; omega
    | ⟨1, _⟩ => show win2_3.index t (1 : Fin 2) * 256 + 1 * (j 1).val = win2_4.index t (1 : Fin 2) * 256 + 1 * (j 1).val; omega
  · intro k
    show V c main_v68 (((cfg2.win 0).blk t).view.emb (ix2 (j 0) k)) = V c main_v68 (ix2 ((((cfg2.win 4).blk t).view.emb j) 0) k)
    refine congrArg _ (funext fun a => Fin.ext ?_)
    match a with
    | ⟨0, _⟩ => show win2_0.index t (0 : Fin 2) * 4000 + 1 * (j 0).val = win2_4.index t (0 : Fin 2) * 4000 + 1 * (j 0).val; omega
    | ⟨1, _⟩ => show win2_0.index t (1 : Fin 2) * 256 + 1 * k.val = k.val; omega
  · intro k
    show V c main_v70 (((cfg2.win 1).blk t).view.emb (ix2 k (j 1))) = V c main_v70 (ix2 k ((((cfg2.win 4).blk t).view.emb j) 1))
    refine congrArg _ (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_4.index t (1 : Fin 2) * 256 + 1 * (j 1).val; omega

/-- An entry of the output array is in point `t`'s block iff each coordinate is in the block's range on its axis. -/
theorem mem_block (t : Fin cfg2.N) (i : S40000x256.Idx) :
    i ∈ ((cfg2.win 4).blk t).view.set ↔ ∀ a : Fin 2, win2_4.index t a * S4000x256.size a ≤ (i a).val
      ∧ (i a).val < win2_4.index t a * S4000x256.size a + S4000x256.size a := by
  show i ∈ ((View.whole main_v71).slice (win2_4.rect t)).set ↔ _
  rw [View.set_slice_whole, Rect.mem_set_unit]
  exact Iff.rfl

/-- The ten row blocks cover the array: row `r` lies in the block of the point whose row block is `r / 4000`. -/
theorem covered (i : S40000x256.Idx) :
    ∃ t : Fin cfg2.N, (cfg2.win 4).flush t = true ∧ i ∈ ((cfg2.win 4).blk t).view.set := by
  have hi0 : (i 0).val < 40000 := (i 0).isLt
  have hi1 : (i 1).val < 256 := (i 1).isLt
  obtain ⟨t, ht⟩ := index_onto ⟨(i 0).val / 4000, by omega⟩
  have q0 : win2_4.index t (0 : Fin 2) = (i 0).val / 4000 := congrFun ht 0
  have q1 : win2_4.index t (1 : Fin 2) = 0 := congrFun ht 1
  refine ⟨t, flush2_4 t, ?_⟩
  rw [mem_block]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 256 ≤ (i 1).val ∧ (i 1).val < win2_4.index t (1 : Fin 2) * 256 + 256; omega

/-- The output array after the region: the running total plus the product of the feature matrix and the weight, of
    the arrays as the region finds them. -/
theorem value (c : Dev nD) :
    (dat2 V c).arrAt 4 cfg2.N = Cert.ChebSpec.accum (V c main_v52) (V c main_v68) (V c main_v70) :=
  (dat2 V c).arrAt_eq_of_cover 4 _ (fun t _ => flushed_eq V c t) covered

end Cert.KernelIdeal.Region2

end
-- ==== Proof.Region3.lean ====
/-
  What region 3 of the program leaves in its output array, as one function of the arrays it finds.

  The region runs its body at 10 grid points. Point `t` is given rows `4000 t … 4000 t + 3999` of the feature matrix
  and of the running total, and the whole weight matrix; it writes the same rows of the output. So the entry of the
  output at node `4000 t + q` and channel `o` is the running total there plus the sum over `c` of the feature
  matrix at `(4000 t + q, c)` times the weight at `(c, o)`: the blocks are restrictions of one whole-array function,
  and the ten row blocks cover all 40000 rows (row `r` is in the block of point `r / 4000`).
-/
import proofs.«137525_j13288628814252_2_alg».proof.Proof.Gen.KernelIdeal.Frame
import proofs.«137525_j13288628814252_2_alg».proof.Proof.Payload
import proofs.«137525_j13288628814252_2_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature block, the running total's block and the output block of
    point `t` all sit at row block `t` and column block 0, and the weight is always its one whole block. -/
theorem index_maps : ∀ t : Fin cfg3.N,
    win3_0.index t (0 : Fin 2) = win3_4.index t (0 : Fin 2) ∧ win3_0.index t (1 : Fin 2) = 0
    ∧ win3_1.index t (0 : Fin 2) = 0 ∧ win3_1.index t (1 : Fin 2) = 0
    ∧ win3_3.index t (0 : Fin 2) = win3_4.index t (0 : Fin 2) ∧ win3_3.index t (1 : Fin 2) = 0
    ∧ win3_4.index t (1 : Fin 2) = 0 ∧ win3_4.index t (0 : Fin 2) ≤ 9 :=
  (by decide +kernel : ∀ t : Fin grid3.N, _)

/-- Every row block is some point's. -/
theorem index_onto : ∀ r : Fin 10, ∃ t : Fin cfg3.N, win3_4.index t = ![r.val, 0] :=
  (by decide +kernel : ∀ r : Fin 10, ∃ t : Fin grid3.N, win3_4.index t = ![r.val, 0])

/-- One entry of what a point stores: if the blocks it was given agree with the arrays `A`, `T`, `W` along the row
    and the column of the entry, it is the running total plus the product there. -/
theorem point_value (x0 : Vec Ideal S4000x256 .f32) (x1 : Vec Ideal S256x256 .f32) (x3 : Vec Ideal S4000x256 .f32)
    (A T : Cert.ChebSpec.SN.Idx → EReal) (W : Cert.ChebSpec.SW.Idx → EReal) (j : S4000x256.Idx) (i : Cert.ChebSpec.SN.Idx)
    (h3 : x3 j = A i)
    (h0 : ∀ k : Fin 256, x0 (ix2 (j 0) k) = T (ix2 (i 0) k))
    (h1 : ∀ k : Fin 256, x1 (ix2 k (j 1)) = W (ix2 k (i 1))) :
    k3_pay1 x0 x1 x3 j = Cert.ChebSpec.accum A T W i := by
  refine (congrArg (k3_pay1 x0 x1 x3) (eq_ix2 j)).trans ((Payload.accum3_apply x0 x1 x3 (j 0) (j 1)).trans ?_)
  have e3 : x3 (ix2 (j 0) (j 1)) = A i := (congrArg x3 (eq_ix2 j)).symm.trans h3
  exact congrArg₂ (· + ·) e3 (Finset.sum_congr rfl fun k _ => congrArg₂ (· * ·) (h0 k) (h1 k))

/-- What point `t` writes back is block `t` of the running total plus the product, of the arrays as the region
    finds them. -/
theorem flushed_eq (c : Dev nD) (t : Fin cfg3.N) :
    (dat3 V c).flushed 4 t = ((cfg3.win 4).blk t).view.read (Elt Ideal)
      (Cert.ChebSpec.accum (V c main_v71) (V c main_v87) (V c main_v89)) := by
  show (cfg3.win 4).cut (grid3.coords t) ((dat3 V c).after 4 t) = _
  rw [after3_4]
  unfold out3_4
  rw [View.canon_unit_zero origin]
  simp only [View.ld_unit_zero (S := S4000x256) origin, View.ld_unit_zero (S := S256x256) origin]
  obtain ⟨e00, e01, e10, e11, e30, e31, e41, -⟩ := index_maps t
  funext j
  show k3_pay1 (iblk3 V c 0 t) (iblk3 V c 1 t) (iblk3 V c 3 t) j
    = Cert.ChebSpec.accum (V c main_v71) (V c main_v87) (V c main_v89) (((cfg3.win 4).blk t).view.emb j)
  refine point_value (iblk3 V c 0 t) (iblk3 V c 1 t) (iblk3 V c 3 t) (V c main_v71) (V c main_v87) (V c main_v89) j
    (((cfg3.win 4).blk t).view.emb j) ?_ ?_ ?_
  · show V c main_v71 (((cfg3.win 3).blk t).view.emb j) = V c main_v71 (((cfg3.win 4).blk t).view.emb j)
    refine congrArg _ (funext fun a => Fin.ext ?_)
    match a with
    | ⟨0, _⟩ => show win3_3.index t (0 : Fin 2) * 4000 + 1 * (j 0).val = win3_4.index t (0 : Fin 2) * 4000 + 1 * (j 0).val; omega
    | ⟨1, _⟩ => show win3_3.index t (1 : Fin 2) * 256 + 1 * (j 1).val = win3_4.index t (1 : Fin 2) * 256 + 1 * (j 1).val; omega
  · intro k
    show V c main_v87 (((cfg3.win 0).blk t).view.emb (ix2 (j 0) k)) = V c main_v87 (ix2 ((((cfg3.win 4).blk t).view.emb j) 0) k)
    refine congrArg _ (funext fun a => Fin.ext ?_)
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 256 + 1 * k.val = k.val; omega
  · intro k
    show V c main_v89 (((cfg3.win 1).blk t).view.emb (ix2 k (j 1))) = V c main_v89 (ix2 k ((((cfg3.win 4).blk t).view.emb j) 1))
    refine congrArg _ (funext fun a => Fin.ext ?_)
    match a with
    | ⟨0, _⟩ => show win3_1.index t (0 : Fin 2) * 256 + 1 * k.val = k.val; omega
    | ⟨1, _⟩ => show win3_1.index t (1 : Fin 2) * 256 + 1 * (j 1).val = win3_4.index t (1 : Fin 2) * 256 + 1 * (j 1).val; omega

/-- An entry of the output array is in point `t`'s block iff each coordinate is in the block's range on its axis. -/
theorem mem_block (t : Fin cfg3.N) (i : S40000x256.Idx) :
    i ∈ ((cfg3.win 4).blk t).view.set ↔ ∀ a : Fin 2, win3_4.index t a * S4000x256.size a ≤ (i a).val
      ∧ (i a).val < win3_4.index t a * S4000x256.size a + S4000x256.size a := by
  show i ∈ ((View.whole main_v90).slice (win3_4.rect t)).set ↔ _
  rw [View.set_slice_whole, Rect.mem_set_unit]
  exact Iff.rfl

/-- The ten row blocks cover the array: row `r` lies in the block of the point whose row block is `r / 4000`. -/
theorem covered (i : S40000x256.Idx) :
    ∃ t : Fin cfg3.N, (cfg3.win 4).flush t = true ∧ i ∈ ((cfg3.win 4).blk t).view.set := by
  have hi0 : (i 0).val < 40000 := (i 0).isLt
  have hi1 : (i 1).val < 256 := (i 1).isLt
  obtain ⟨t, ht⟩ := index_onto ⟨(i 0).val / 4000, by omega⟩
  have q0 : win3_4.index t (0 : Fin 2) = (i 0).val / 4000 := congrFun ht 0
  have q1 : win3_4.index t (1 : Fin 2) = 0 := congrFun ht 1
  refine ⟨t, flush3_4 t, ?_⟩
  rw [mem_block]
  intro a
  match a with
  | ⟨0, _⟩ => show win3_4.index t (0 : Fin 2) * 4000 ≤ (i 0).val ∧ (i 0).val < win3_4.index t (0 : Fin 2) * 4000 + 4000; omega
  | ⟨1, _⟩ => show win3_4.index t (1 : Fin 2) * 256 ≤ (i 1).val ∧ (i 1).val < win3_4.index t (1 : Fin 2) * 256 + 256; omega

/-- The output array after the region: the running total plus the product of the feature matrix and the weight, of
    the arrays as the region finds them. -/
theorem value (c : Dev nD) :
    (dat3 V c).arrAt 4 cfg3.N = Cert.ChebSpec.accum (V c main_v71) (V c main_v87) (V c main_v89) :=
  (dat3 V c).arrAt_eq_of_cover 4 _ (fun t _ => flushed_eq V c t) covered

end Cert.KernelIdeal.Region3

end
-- ==== Proof.Region4.lean ====
/-
  What the last region of the program leaves in its output array, as one function of the arrays it finds.

  The region runs its body at 10 grid points. Point `t` is given rows `4000 t … 4000 t + 3999` of the feature matrix
  and of the running total, the whole weight matrix and the bias as one row; it writes the same rows of the output.
  So the entry of the output at node `4000 t + q` and channel `o` is the running total there plus the sum over `c`
  of the feature matrix at `(4000 t + q, c)` times the weight at `(c, o)`, plus the bias of channel `o`: the blocks
  are restrictions of one whole-array function, and the ten row blocks cover all 40000 rows (row `r` is in the block
  of point `r / 4000`).
-/
import proofs.«137525_j13288628814252_2_alg».proof.Proof.Gen.KernelIdeal.Frame
import proofs.«137525_j13288628814252_2_alg».proof.Proof.Payload
import proofs.«137525_j13288628814252_2_alg».proof.Proof.Spec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the feature block, the running total's block and the output block of
    point `t` all sit at row block `t` and column block 0, and the weight is always its one whole block. -/
theorem index_maps : ∀ t : Fin cfg4.N,
    win4_0.index t (0 : Fin 2) = win4_4.index t (0 : Fin 2) ∧ win4_0.index t (1 : Fin 2) = 0
    ∧ win4_1.index t (0 : Fin 2) = 0 ∧ win4_1.index t (1 : Fin 2) = 0
    ∧ win4_3.index t (0 : Fin 2) = win4_4.index t (0 : Fin 2) ∧ win4_3.index t (1 : Fin 2) = 0
    ∧ win4_2.index t (0 : Fin 2) = 0 ∧ win4_2.index t (1 : Fin 2) = 0
    ∧ win4_4.index t (1 : Fin 2) = 0 ∧ win4_4.index t (0 : Fin 2) ≤ 9 :=
  (by decide +kernel : ∀ t : Fin grid4.N, _)

/-- Every row block is some point's. -/
theorem index_onto : ∀ r : Fin 10, ∃ t : Fin cfg4.N, win4_4.index t = ![r.val, 0] :=
  (by decide +kernel : ∀ r : Fin 10, ∃ t : Fin grid4.N, win4_4.index t = ![r.val, 0])

/-- One entry of what a point stores: if the blocks it was given agree with the arrays `A`, `T`, `W` and the bias
    row `b` along the row and the column of the entry, it is the running total plus the product plus the bias there. -/
theorem point_value (x0 : Vec Ideal S4000x256 .f32) (x1 : Vec Ideal S256x256 .f32) (x3 : Vec Ideal S4000x256 .f32)
    (x2 : Vec Ideal S1x256 .f32)
    (A T : Cert.ChebSpec.SN.Idx → EReal) (W : Cert.ChebSpec.SW.Idx → EReal) (b : Cert.ChebSpec.SB.Idx → EReal)
    (j : S4000x256.Idx) (i : Cert.ChebSpec.SN.Idx)
    (h3 : x3 j = A i)
    (h0 : ∀ k : Fin 256, x0 (ix2 (j 0) k) = T (ix2 (i 0) k))
    (h1 : ∀ k : Fin 256, x1 (ix2 k (j 1)) = W (ix2 k (i 1)))
    (h2 : x2 (ix2 0 (j 1)) = b (ix2 0 (i 1))) :
    k4_pay1 x0 x1 x3 x2 j = Cert.ChebSpec.accumBias A T W b i := by
  refine (congrArg (k4_pay1 x0 x1 x3 x2) (eq_ix2 j)).trans ((Payload.accumBias_apply x0 x1 x3 x2 (j 0) (j 1)).trans ?_)
  have e3 : x3 (ix2 (j 0) (j 1)) = A i := (congrArg x3 (eq_ix2 j)).symm.trans h3
  exact congrArg₂ (· + ·) (congrArg₂ (· + ·) e3 (Finset.sum_congr rfl fun k _ => congrArg₂ (· * ·) (h0 k) (h1 k))) h2

/-- What point `t` writes back is block `t` of the running total plus the product plus the bias, of the arrays as
    the region finds them. -/
theorem flushed_eq (c : Dev nD) (t : Fin cfg4.N) :
    (dat4 V c).flushed 4 t = ((cfg4.win 4).blk t).view.read (Elt Ideal)
      (Cert.ChebSpec.accumBias (V c main_v90) (V c main_v106) (V c main_v108) (V c main_v33)) := by
  show (cfg4.win 4).cut (grid4.coords t) ((dat4 V c).after 4 t) = _
  rw [after4_4]
  unfold out4_4
  rw [View.canon_unit_zero origin]
  simp only [View.ld_unit_zero (S := S4000x256) origin, View.ld_unit_zero (S := S256x256) origin,
    View.ld_unit_zero (S := S1x256) origin]
  obtain ⟨e00, e01, e10, e11, e30, e31, e20, e21, e41, -⟩ := index_maps t
  funext j
  show k4_pay1 (iblk4 V c 0 t) (iblk4 V c 1 t) (iblk4 V c 3 t) (iblk4 V c 2 t) j
    = Cert.ChebSpec.accumBias (V c main_v90) (V c main_v106) (V c main_v108) (V c main_v33) (((cfg4.win 4).blk t).view.emb j)
  refine point_value (iblk4 V c 0 t) (iblk4 V c 1 t) (iblk4 V c 3 t) (iblk4 V c 2 t) (V c main_v90) (V c main_v106)
    (V c main_v108) (V c main_v33) j (((cfg4.win 4).blk t).view.emb j) ?_ ?_ ?_ ?_
  · show V c main_v90 (((cfg4.win 3).blk t).view.emb j) = V c main_v90 (((cfg4.win 4).blk t).view.emb j)
    refine congrArg _ (funext fun a => Fin.ext ?_)
    match a with
    | ⟨0, _⟩ => show win4_3.index t (0 : Fin 2) * 4000 + 1 * (j 0).val = win4_4.index t (0 : Fin 2) * 4000 + 1 * (j 0).val; omega
    | ⟨1, _⟩ => show win4_3.index t (1 : Fin 2) * 256 + 1 * (j 1).val = win4_4.index t (1 : Fin 2) * 256 + 1 * (j 1).val; omega
  · intro k
    show V c main_v106 (((cfg4.win 0).blk t).view.emb (ix2 (j 0) k)) = V c main_v106 (ix2 ((((cfg4.win 4).blk t).view.emb j) 0) k)
    refine congrArg _ (funext fun a => Fin.ext ?_)
    match a with
    | ⟨0, _⟩ => show win4_0.index t (0 : Fin 2) * 4000 + 1 * (j 0).val = win4_4.index t (0 : Fin 2) * 4000 + 1 * (j 0).val; omega
    | ⟨1, _⟩ => show win4_0.index t (1 : Fin 2) * 256 + 1 * k.val = k.val; omega
  · intro k
    show V c main_v108 (((cfg4.win 1).blk t).view.emb (ix2 k (j 1))) = V c main_v108 (ix2 k ((((cfg4.win 4).blk t).view.emb j) 1))
    refine congrArg _ (funext fun a => Fin.ext ?_)
    match a with
    | ⟨0, _⟩ => show win4_1.index t (0 : Fin 2) * 256 + 1 * k.val = k.val; omega
    | ⟨1, _⟩ => show win4_1.index t (1 : Fin 2) * 256 + 1 * (j 1).val = win4_4.index t (1 : Fin 2) * 256 + 1 * (j 1).val; omega
  · show V c main_v33 (((cfg4.win 2).blk t).view.emb (ix2 0 (j 1))) = V c main_v33 (ix2 0 ((((cfg4.win 4).blk t).view.emb j) 1))
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * (j 1).val = win4_4.index t (1 : Fin 2) * 256 + 1 * (j 1).val; omega

/-- An entry of the output array is in point `t`'s block iff each coordinate is in the block's range on its axis. -/
theorem mem_block (t : Fin cfg4.N) (i : S40000x256.Idx) :
    i ∈ ((cfg4.win 4).blk t).view.set ↔ ∀ a : Fin 2, win4_4.index t a * S4000x256.size a ≤ (i a).val
      ∧ (i a).val < win4_4.index t a * S4000x256.size a + S4000x256.size a := by
  show i ∈ ((View.whole main_v109).slice (win4_4.rect t)).set ↔ _
  rw [View.set_slice_whole, Rect.mem_set_unit]
  exact Iff.rfl

/-- The ten row blocks cover the array: row `r` lies in the block of the point whose row block is `r / 4000`. -/
theorem covered (i : S40000x256.Idx) :
    ∃ t : Fin cfg4.N, (cfg4.win 4).flush t = true ∧ i ∈ ((cfg4.win 4).blk t).view.set := by
  have hi0 : (i 0).val < 40000 := (i 0).isLt
  have hi1 : (i 1).val < 256 := (i 1).isLt
  obtain ⟨t, ht⟩ := index_onto ⟨(i 0).val / 4000, by omega⟩
  have q0 : win4_4.index t (0 : Fin 2) = (i 0).val / 4000 := congrFun ht 0
  have q1 : win4_4.index t (1 : Fin 2) = 0 := congrFun ht 1
  refine ⟨t, flush4_4 t, ?_⟩
  rw [mem_block]
  intro a
  match a with
  | ⟨0, _⟩ => show win4_4.index t (0 : Fin 2) * 4000 ≤ (i 0).val ∧ (i 0).val < win4_4.index t (0 : Fin 2) * 4000 + 4000; omega
  | ⟨1, _⟩ => show win4_4.index t (1 : Fin 2) * 256 ≤ (i 1).val ∧ (i 1).val < win4_4.index t (1 : Fin 2) * 256 + 256; omega

/-- The output array after the region: the running total plus the product of the feature matrix and the weight plus
    the bias row, of the arrays as the region finds them. -/
theorem value (c : Dev nD) :
    (dat4 V c).arrAt 4 cfg4.N
      = Cert.ChebSpec.accumBias (V c main_v90) (V c main_v106) (V c main_v108) (V c main_v33) :=
  (dat4 V c).arrAt_eq_of_cover 4 _ (fun t _ => flushed_eq V c t) covered

end Cert.KernelIdeal.Region4

end
-- ==== Proof.Stages.lean ====
/-
  What the kernel's program holds in its buffers at every boundary between a stretch of host operations and a
  kernel region, as functions of the five arguments.

  The program alternates host stretches and regions. Before region 0 the host computes the edge ends, the
  Laplacian's edge values, the bias as a row and the first weight slice; region 0 writes `x·W₀`. Before region `k`
  (`k = 1 … 4`) the host computes the next Chebyshev feature `T_k` from the ones before and slice `k` of the weight,
  and copies the running total into the buffer region `k` will overwrite; region `k` writes the running total plus
  `T_k·W_k` (plus the bias in the last one). A buffer that a stretch does not write and a region does not own keeps
  its contents; an input array of a region is never written by it. Each fact below says what one buffer holds at one
  boundary, and is read off the boundary before it.
-/
import proofs.«137525_j13288628814252_2_alg».proof.Proof.Gen.KernelIdeal.Frame
import proofs.«137525_j13288628814252_2_alg».proof.Proof.HostChain
import proofs.«137525_j13288628814252_2_alg».proof.Proof.Spec
import proofs.«137525_j13288628814252_2_alg».proof.Proof.Region0
import proofs.«137525_j13288628814252_2_alg».proof.Proof.Region1
import proofs.«137525_j13288628814252_2_alg».proof.Proof.Region2
import proofs.«137525_j13288628814252_2_alg».proof.Proof.Region3
import proofs.«137525_j13288628814252_2_alg».proof.Proof.Region4
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem
  Idealize.ShloMosaic.StableHlo
open Cert.ReferenceIdeal.Chain (row col degree keptWeight degInvSqrt lap T1 T2 T3 T4 w0 w1 w2 w3 w4)
open Cert.ChebSpec (prod accum accumBias biasRow accum_congr accumBias_congr reshape_row)

variable (m : (ℓ : Loc nD τ sig) → Buf (Elt Ideal) ℓ) (ρ : Dev nD → PrngReg) (c : Dev nD)

/-- The five arguments as launched: features, edge list, edge weights, weight tensor, bias. -/
abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)

/-! ## Before region 0 -/

theorem at5_row : W5 m ρ c (Proc.devRef .tc main_v1) = row (X1 m c) := by
  dsimp only [W5, W4, W3, W2, W1, hostOps0_4, hostOps0_3, hostOps0_2, hostOps0_1, hostOps0]
  after_results_simp
  rfl

theorem at5_col : W5 m ρ c (Proc.devRef .tc main_v3) = col (X1 m c) := by
  dsimp only [W5, W4, W3, W2, W1, hostOps0_4, hostOps0_3, hostOps0_2, hostOps0_1, hostOps0]
  after_results_simp
  rfl

/-- After the degree's stretch and the two selections: the edge ends, the kept weights and `d^(-1/2)`. -/
theorem at4_row : W4 m ρ c (Proc.devRef .tc main_v1) = row (X1 m c) := by
  dsimp only [W4, W3, W2, W1, hostOps0_3, hostOps0_2, hostOps0_1, hostOps0]
  after_results_simp
  rfl

theorem at4_col : W4 m ρ c (Proc.devRef .tc main_v3) = col (X1 m c) := by
  dsimp only [W4, W3, W2, W1, hostOps0_3, hostOps0_2, hostOps0_1, hostOps0]
  after_results_simp
  rfl

theorem at4_keptWeight : W4 m ρ c (Proc.devRef .tc main_v5) = keptWeight (F := Ideal) (X1 m c) (X2 m c) := by
  dsimp only [W4, W3, W2, W1, hostOps0_3, hostOps0_2, hostOps0_1, hostOps0]
  after_results_simp
  rfl

/-- After the degree's stretch: which nodes have an edge, the reciprocal square root of the degree floored at one,
    and the zero the selection falls back to. -/
theorem at3_hasEdge : W3 m ρ c (Proc.devRef .tc main_v11)
    = cmpf .ogt (degree (F := Ideal) (X1 m c))
        (broadcastInDim Cert.ReferenceIdeal.S40000 ![] Cert.ReferenceIdeal.Gen.bcast_S_S40000
          (constant Cert.ReferenceIdeal.S_ .f32 0x00000000#32)) := by
  dsimp only [W3, W2, W1, hostOps0_2, hostOps0_1, hostOps0]
  after_results_simp
  rfl

theorem at3_rsqrt : W3 m ρ c (Proc.devRef .tc main_v14)
    = Host.rsqrt (maximumf (degree (F := Ideal) (X1 m c))
        (broadcastInDim Cert.ReferenceIdeal.S40000 ![] Cert.ReferenceIdeal.Gen.bcast_S_S40000
          (constant Cert.ReferenceIdeal.S_ .f32 0x3F800000#32))) := by
  dsimp only [W3, W2, W1, hostOps0_2, hostOps0_1, hostOps0]
  after_results_simp
  rfl

theorem at3_zero : W3 m ρ c (Proc.devRef .tc main_cst_3) = constant (F := Ideal) Cert.ReferenceIdeal.S_ .f32 0x00000000#32 := by
  dsimp only [W3, W2, W1, hostOps0_2, hostOps0_1, hostOps0]
  after_results_simp

theorem at4_degInvSqrt : W4 m ρ c (Proc.devRef .tc main_v15) = degInvSqrt (F := Ideal) (X1 m c) := by
  have he := at3_hasEdge m ρ c
  have hs := at3_rsqrt m ρ c
  have hz := at3_zero m ρ c
  dsimp only [W4, hostOps0_3]
  generalize W3 m ρ c = Wv at he hs hz ⊢
  after_results_simp
  rw [he, hs, hz]
  unfold degInvSqrt
  generalize degree (F := Ideal) (X1 m c) = d
  rfl

/-- The Laplacian's edge values, from those: the last stretch before region 0 read over the contents it starts
    from, whatever they are, and then at the four buffers it reads. -/
theorem at5_lap : W5 m ρ c (Proc.devRef .tc main_v32) = lap (F := Ideal) (X1 m c) (X2 m c) := by
  have hd := at4_degInvSqrt m ρ c
  have hw := at4_keptWeight m ρ c
  have hr := at4_row m ρ c
  have hc := at4_col m ρ c
  dsimp only [W5, hostOps0_4]
  generalize W4 m ρ c = Wv at hd hw hr hc ⊢
  after_results_simp
  rw [hd, hw, hr, hc]
  rfl

theorem at5_bias : W5 m ρ c (Proc.devRef .tc main_v33) = biasRow (X4 m c) := by
  dsimp only [W5, W4, W3, W2, W1, hostOps0_4, hostOps0_3, hostOps0_2, hostOps0_1, hostOps0]
  after_results_simp
  exact reshape_row _ _

theorem at5_w0 : W5 m ρ c (Proc.devRef .tc main_v35) = w0 (F := Ideal) (X3 m c) := by
  dsimp only [W5, W4, W3, W2, W1, hostOps0_4, hostOps0_3, hostOps0_2, hostOps0_1, hostOps0]
  after_results_simp
  rfl

theorem at5_x : W5 m ρ c (Proc.devRef .tc main_arg0) = X0 m c := by
  dsimp only [W5, W4, W3, W2, W1, hostOps0_4, hostOps0_3, hostOps0_2, hostOps0_1, hostOps0]
  after_results_simp

theorem at5_wt : W5 m ρ c (Proc.devRef .tc main_arg3) = X3 m c := by
  dsimp only [W5, W4, W3, W2, W1, hostOps0_4, hostOps0_3, hostOps0_2, hostOps0_1, hostOps0]
  after_results_simp

/-! ## After region 0 -/

theorem at6_out : W6 m ρ c (Proc.devRef .tc main_v36) = prod (X0 m c) (w0 (F := Ideal) (X3 m c)) :=
  (W6_arr m ρ c 2).trans ((Region0.value (V5 m ρ) c).trans (congrArg₂ prod (at5_x m ρ c) (at5_w0 m ρ c)))

theorem at6_row : W6 m ρ c (Proc.devRef .tc main_v1) = row (X1 m c) :=
  (W6_of_ne m ρ c main_v1 (by decide)).trans (at5_row m ρ c)
theorem at6_col : W6 m ρ c (Proc.devRef .tc main_v3) = col (X1 m c) :=
  (W6_of_ne m ρ c main_v3 (by decide)).trans (at5_col m ρ c)
theorem at6_lap : W6 m ρ c (Proc.devRef .tc main_v32) = lap (F := Ideal) (X1 m c) (X2 m c) :=
  (W6_of_ne m ρ c main_v32 (by decide)).trans (at5_lap m ρ c)
theorem at6_bias : W6 m ρ c (Proc.devRef .tc main_v33) = biasRow (X4 m c) :=
  (W6_of_ne m ρ c main_v33 (by decide)).trans (at5_bias m ρ c)
theorem at6_wt : W6 m ρ c (Proc.devRef .tc main_arg3) = X3 m c :=
  (W6_of_ne m ρ c main_arg3 (by decide)).trans (at5_wt m ρ c)
theorem at6_x : W6 m ρ c (Proc.devRef .tc main_arg0) = X0 m c :=
  ((W6_arr m ρ c 0).trans (((dat0 (V5 m ρ) c).arrAt_in 0 rfl _).trans (A_eq0 (V5 m ρ) c 0))).trans (at5_x m ρ c)

/-! ## Before region 1 -/

theorem at7_T1 : W7 m ρ c (Proc.devRef .tc main_v49) = T1 (F := Ideal) (X0 m c) (X1 m c) (X2 m c) := by
  dsimp only [W7, hostOps1]; after_results_simp
  rw [at6_lap m ρ c, at6_col m ρ c, at6_row m ρ c, at6_x m ρ c]
  rfl

theorem at7_w1 : W7 m ρ c (Proc.devRef .tc main_v51) = w1 (F := Ideal) (X3 m c) := by
  dsimp only [W7, hostOps1]; after_results_simp
  rw [at6_wt m ρ c]
  rfl

theorem at7_acc : W7 m ρ c (Proc.devRef .tc main_v36) = prod (X0 m c) (w0 (F := Ideal) (X3 m c)) := by
  dsimp only [W7, hostOps1]; after_results_simp; exact at6_out m ρ c
theorem at7_row : W7 m ρ c (Proc.devRef .tc main_v1) = row (X1 m c) := by
  dsimp only [W7, hostOps1]; after_results_simp; exact at6_row m ρ c
theorem at7_col : W7 m ρ c (Proc.devRef .tc main_v3) = col (X1 m c) := by
  dsimp only [W7, hostOps1]; after_results_simp; exact at6_col m ρ c
theorem at7_lap : W7 m ρ c (Proc.devRef .tc main_v32) = lap (F := Ideal) (X1 m c) (X2 m c) := by
  dsimp only [W7, hostOps1]; after_results_simp; exact at6_lap m ρ c
theorem at7_bias : W7 m ρ c (Proc.devRef .tc main_v33) = biasRow (X4 m c) := by
  dsimp only [W7, hostOps1]; after_results_simp; exact at6_bias m ρ c
theorem at7_wt : W7 m ρ c (Proc.devRef .tc main_arg3) = X3 m c := by
  dsimp only [W7, hostOps1]; after_results_simp; exact at6_wt m ρ c
theorem at7_x : W7 m ρ c (Proc.devRef .tc main_arg0) = X0 m c := by
  dsimp only [W7, hostOps1]; after_results_simp; exact at6_x m ρ c

/-! ## After region 1 -/

theorem at8_out : W8 m ρ c (Proc.devRef .tc main_v52)
    = accum (prod (X0 m c) (w0 (F := Ideal) (X3 m c))) (T1 (F := Ideal) (X0 m c) (X1 m c) (X2 m c)) (w1 (F := Ideal) (X3 m c)) :=
  (W8_arr m ρ c 4).trans ((Region1.value (V7 m ρ) c).trans (accum_congr (at7_acc m ρ c) (at7_T1 m ρ c) (at7_w1 m ρ c)))

theorem at8_row : W8 m ρ c (Proc.devRef .tc main_v1) = row (X1 m c) :=
  (W8_of_ne m ρ c main_v1 (by decide)).trans (at7_row m ρ c)
theorem at8_col : W8 m ρ c (Proc.devRef .tc main_v3) = col (X1 m c) :=
  (W8_of_ne m ρ c main_v3 (by decide)).trans (at7_col m ρ c)
theorem at8_lap : W8 m ρ c (Proc.devRef .tc main_v32) = lap (F := Ideal) (X1 m c) (X2 m c) :=
  (W8_of_ne m ρ c main_v32 (by decide)).trans (at7_lap m ρ c)
theorem at8_wt : W8 m ρ c (Proc.devRef .tc main_arg3) = X3 m c :=
  (W8_of_ne m ρ c main_arg3 (by decide)).trans (at7_wt m ρ c)
theorem at8_x : W8 m ρ c (Proc.devRef .tc main_arg0) = X0 m c :=
  (W8_of_ne m ρ c main_arg0 (by decide)).trans (at7_x m ρ c)
theorem at8_bias : W8 m ρ c (Proc.devRef .tc main_v33) = biasRow (X4 m c) :=
  ((W8_arr m ρ c 2).trans (((dat1 (V7 m ρ) c).arrAt_in 2 rfl _).trans (A_eq1 (V7 m ρ) c 2))).trans (at7_bias m ρ c)
theorem at8_T1 : W8 m ρ c (Proc.devRef .tc main_v49) = T1 (F := Ideal) (X0 m c) (X1 m c) (X2 m c) :=
  ((W8_arr m ρ c 0).trans (((dat1 (V7 m ρ) c).arrAt_in 0 rfl _).trans (A_eq1 (V7 m ρ) c 0))).trans (at7_T1 m ρ c)

/-! ## Before region 2 -/

theorem at9_T2 : W9 m ρ c (Proc.devRef .tc main_v68) = T2 (F := Ideal) (X0 m c) (X1 m c) (X2 m c) := by
  dsimp only [W9, hostOps2]; after_results_simp
  rw [at8_lap m ρ c, at8_col m ρ c, at8_row m ρ c, at8_T1 m ρ c, at8_x m ρ c]
  rfl

theorem at9_w2 : W9 m ρ c (Proc.devRef .tc main_v70) = w2 (F := Ideal) (X3 m c) := by
  dsimp only [W9, hostOps2]; after_results_simp
  rw [at8_wt m ρ c]
  rfl

theorem at9_acc : W9 m ρ c (Proc.devRef .tc main_v52)
    = accum (prod (X0 m c) (w0 (F := Ideal) (X3 m c))) (T1 (F := Ideal) (X0 m c) (X1 m c) (X2 m c)) (w1 (F := Ideal) (X3 m c)) := by
  dsimp only [W9, hostOps2]; after_results_simp; exact at8_out m ρ c
theorem at9_row : W9 m ρ c (Proc.devRef .tc main_v1) = row (X1 m c) := by
  dsimp only [W9, hostOps2]; after_results_simp; exact at8_row m ρ c
theorem at9_col : W9 m ρ c (Proc.devRef .tc main_v3) = col (X1 m c) := by
  dsimp only [W9, hostOps2]; after_results_simp; exact at8_col m ρ c
theorem at9_lap : W9 m ρ c (Proc.devRef .tc main_v32) = lap (F := Ideal) (X1 m c) (X2 m c) := by
  dsimp only [W9, hostOps2]; after_results_simp; exact at8_lap m ρ c
theorem at9_bias : W9 m ρ c (Proc.devRef .tc main_v33) = biasRow (X4 m c) := by
  dsimp only [W9, hostOps2]; after_results_simp; exact at8_bias m ρ c
theorem at9_wt : W9 m ρ c (Proc.devRef .tc main_arg3) = X3 m c := by
  dsimp only [W9, hostOps2]; after_results_simp; exact at8_wt m ρ c
theorem at9_T1 : W9 m ρ c (Proc.devRef .tc main_v49) = T1 (F := Ideal) (X0 m c) (X1 m c) (X2 m c) := by
  dsimp only [W9, hostOps2]; after_results_simp; exact at8_T1 m ρ c

/-! ## After region 2 -/

theorem at10_out : W10 m ρ c (Proc.devRef .tc main_v71)
    = accum (accum (prod (X0 m c) (w0 (F := Ideal) (X3 m c))) (T1 (F := Ideal) (X0 m c) (X1 m c) (X2 m c)) (w1 (F := Ideal) (X3 m c)))
        (T2 (F := Ideal) (X0 m c) (X1 m c) (X2 m c)) (w2 (F := Ideal) (X3 m c)) :=
  (W10_arr m ρ c 4).trans ((Region2.value (V9 m ρ) c).trans (accum_congr (at9_acc m ρ c) (at9_T2 m ρ c) (at9_w2 m ρ c)))

theorem at10_row : W10 m ρ c (Proc.devRef .tc main_v1) = row (X1 m c) :=
  (W10_of_ne m ρ c main_v1 (by decide)).trans (at9_row m ρ c)
theorem at10_col : W10 m ρ c (Proc.devRef .tc main_v3) = col (X1 m c) :=
  (W10_of_ne m ρ c main_v3 (by decide)).trans (at9_col m ρ c)
theorem at10_lap : W10 m ρ c (Proc.devRef .tc main_v32) = lap (F := Ideal) (X1 m c) (X2 m c) :=
  (W10_of_ne m ρ c main_v32 (by decide)).trans (at9_lap m ρ c)
theorem at10_wt : W10 m ρ c (Proc.devRef .tc main_arg3) = X3 m c :=
  (W10_of_ne m ρ c main_arg3 (by decide)).trans (at9_wt m ρ c)
theorem at10_T1 : W10 m ρ c (Proc.devRef .tc main_v49) = T1 (F := Ideal) (X0 m c) (X1 m c) (X2 m c) :=
  (W10_of_ne m ρ c main_v49 (by decide)).trans (at9_T1 m ρ c)
theorem at10_bias : W10 m ρ c (Proc.devRef .tc main_v33) = biasRow (X4 m c) :=
  ((W10_arr m ρ c 2).trans (((dat2 (V9 m ρ) c).arrAt_in 2 rfl _).trans (A_eq2 (V9 m ρ) c 2))).trans (at9_bias m ρ c)
theorem at10_T2 : W10 m ρ c (Proc.devRef .tc main_v68) = T2 (F := Ideal) (X0 m c) (X1 m c) (X2 m c) :=
  ((W10_arr m ρ c 0).trans (((dat2 (V9 m ρ) c).arrAt_in 0 rfl _).trans (A_eq2 (V9 m ρ) c 0))).trans (at9_T2 m ρ c)

/-! ## Before region 3 -/

theorem at11_T3 : W11 m ρ c (Proc.devRef .tc main_v87) = T3 (F := Ideal) (X0 m c) (X1 m c) (X2 m c) := by
  dsimp only [W11, hostOps3]; after_results_simp
  rw [at10_lap m ρ c, at10_col m ρ c, at10_row m ρ c, at10_T2 m ρ c, at10_T1 m ρ c]
  rfl

theorem at11_w3 : W11 m ρ c (Proc.devRef .tc main_v89) = w3 (F := Ideal) (X3 m c) := by
  dsimp only [W11, hostOps3]; after_results_simp
  rw [at10_wt m ρ c]
  rfl

theorem at11_acc : W11 m ρ c (Proc.devRef .tc main_v71)
    = accum (accum (prod (X0 m c) (w0 (F := Ideal) (X3 m c))) (T1 (F := Ideal) (X0 m c) (X1 m c) (X2 m c)) (w1 (F := Ideal) (X3 m c)))
        (T2 (F := Ideal) (X0 m c) (X1 m c) (X2 m c)) (w2 (F := Ideal) (X3 m c)) := by
  dsimp only [W11, hostOps3]; after_results_simp; exact at10_out m ρ c
theorem at11_row : W11 m ρ c (Proc.devRef .tc main_v1) = row (X1 m c) := by
  dsimp only [W11, hostOps3]; after_results_simp; exact at10_row m ρ c
theorem at11_col : W11 m ρ c (Proc.devRef .tc main_v3) = col (X1 m c) := by
  dsimp only [W11, hostOps3]; after_results_simp; exact at10_col m ρ c
theorem at11_lap : W11 m ρ c (Proc.devRef .tc main_v32) = lap (F := Ideal) (X1 m c) (X2 m c) := by
  dsimp only [W11, hostOps3]; after_results_simp; exact at10_lap m ρ c
theorem at11_bias : W11 m ρ c (Proc.devRef .tc main_v33) = biasRow (X4 m c) := by
  dsimp only [W11, hostOps3]; after_results_simp; exact at10_bias m ρ c
theorem at11_wt : W11 m ρ c (Proc.devRef .tc main_arg3) = X3 m c := by
  dsimp only [W11, hostOps3]; after_results_simp; exact at10_wt m ρ c
theorem at11_T2 : W11 m ρ c (Proc.devRef .tc main_v68) = T2 (F := Ideal) (X0 m c) (X1 m c) (X2 m c) := by
  dsimp only [W11, hostOps3]; after_results_simp; exact at10_T2 m ρ c

/-! ## After region 3 -/

theorem at12_out : W12 m ρ c (Proc.devRef .tc main_v90)
    = accum (accum (accum (prod (X0 m c) (w0 (F := Ideal) (X3 m c))) (T1 (F := Ideal) (X0 m c) (X1 m c) (X2 m c)) (w1 (F := Ideal) (X3 m c)))
        (T2 (F := Ideal) (X0 m c) (X1 m c) (X2 m c)) (w2 (F := Ideal) (X3 m c))) (T3 (F := Ideal) (X0 m c) (X1 m c) (X2 m c)) (w3 (F := Ideal) (X3 m c)) :=
  (W12_arr m ρ c 4).trans ((Region3.value (V11 m ρ) c).trans (accum_congr (at11_acc m ρ c) (at11_T3 m ρ c) (at11_w3 m ρ c)))

theorem at12_row : W12 m ρ c (Proc.devRef .tc main_v1) = row (X1 m c) :=
  (W12_of_ne m ρ c main_v1 (by decide)).trans (at11_row m ρ c)
theorem at12_col : W12 m ρ c (Proc.devRef .tc main_v3) = col (X1 m c) :=
  (W12_of_ne m ρ c main_v3 (by decide)).trans (at11_col m ρ c)
theorem at12_lap : W12 m ρ c (Proc.devRef .tc main_v32) = lap (F := Ideal) (X1 m c) (X2 m c) :=
  (W12_of_ne m ρ c main_v32 (by decide)).trans (at11_lap m ρ c)
theorem at12_wt : W12 m ρ c (Proc.devRef .tc main_arg3) = X3 m c :=
  (W12_of_ne m ρ c main_arg3 (by decide)).trans (at11_wt m ρ c)
theorem at12_T2 : W12 m ρ c (Proc.devRef .tc main_v68) = T2 (F := Ideal) (X0 m c) (X1 m c) (X2 m c) :=
  (W12_of_ne m ρ c main_v68 (by decide)).trans (at11_T2 m ρ c)
theorem at12_bias : W12 m ρ c (Proc.devRef .tc main_v33) = biasRow (X4 m c) :=
  ((W12_arr m ρ c 2).trans (((dat3 (V11 m ρ) c).arrAt_in 2 rfl _).trans (A_eq3 (V11 m ρ) c 2))).trans (at11_bias m ρ c)
theorem at12_T3 : W12 m ρ c (Proc.devRef .tc main_v87) = T3 (F := Ideal) (X0 m c) (X1 m c) (X2 m c) :=
  ((W12_arr m ρ c 0).trans (((dat3 (V11 m ρ) c).arrAt_in 0 rfl _).trans (A_eq3 (V11 m ρ) c 0))).trans (at11_T3 m ρ c)

/-! ## Before region 4 -/

theorem at13_T4 : W13 m ρ c (Proc.devRef .tc main_v106) = T4 (F := Ideal) (X0 m c) (X1 m c) (X2 m c) := by
  dsimp only [W13, hostOps4]; after_results_simp
  rw [at12_lap m ρ c, at12_col m ρ c, at12_row m ρ c, at12_T3 m ρ c, at12_T2 m ρ c]
  rfl

theorem at13_w4 : W13 m ρ c (Proc.devRef .tc main_v108) = w4 (F := Ideal) (X3 m c) := by
  dsimp only [W13, hostOps4]; after_results_simp
  rw [at12_wt m ρ c]
  rfl

theorem at13_acc : W13 m ρ c (Proc.devRef .tc main_v90)
    = accum (accum (accum (prod (X0 m c) (w0 (F := Ideal) (X3 m c))) (T1 (F := Ideal) (X0 m c) (X1 m c) (X2 m c)) (w1 (F := Ideal) (X3 m c)))
        (T2 (F := Ideal) (X0 m c) (X1 m c) (X2 m c)) (w2 (F := Ideal) (X3 m c))) (T3 (F := Ideal) (X0 m c) (X1 m c) (X2 m c)) (w3 (F := Ideal) (X3 m c)) := by
  dsimp only [W13, hostOps4]; after_results_simp; exact at12_out m ρ c
theorem at13_bias : W13 m ρ c (Proc.devRef .tc main_v33) = biasRow (X4 m c) := by
  dsimp only [W13, hostOps4]; after_results_simp; exact at12_bias m ρ c

/-! ## After region 4: the result -/

/-- The result buffer at the end: `((((x·W₀ + T₁·W₁) + T₂·W₂) + T₃·W₃) + T₄·W₄) + bias`, entry by entry. -/
theorem at14_out : W14 m ρ c (Proc.devRef .tc main_v109)
    = accumBias
        (accum (accum (accum (prod (X0 m c) (w0 (F := Ideal) (X3 m c))) (T1 (F := Ideal) (X0 m c) (X1 m c) (X2 m c)) (w1 (F := Ideal) (X3 m c)))
          (T2 (F := Ideal) (X0 m c) (X1 m c) (X2 m c)) (w2 (F := Ideal) (X3 m c))) (T3 (F := Ideal) (X0 m c) (X1 m c) (X2 m c)) (w3 (F := Ideal) (X3 m c)))
        (T4 (F := Ideal) (X0 m c) (X1 m c) (X2 m c)) (w4 (F := Ideal) (X3 m c)) (biasRow (X4 m c)) :=
  (W14_arr m ρ c 4).trans ((Region4.value (V13 m ρ) c).trans
    (accumBias_congr (at13_acc m ρ c) (at13_T4 m ρ c) (at13_w4 m ρ c) (at13_bias m ρ c)))

end Cert.KernelIdeal.Stages

end
-- ==== Proof.lean ====
/-
  A Chebyshev graph convolution of order five: the kernel's program against its reference, over the extended reals.

  Both programs build the same Chebyshev features on the host — from the edge list and the edge weights the scaled
  Laplacian's edge values, then `T₁ = L x` and `T_k = 2 L T_(k-1) - T_(k-2)` by gathers and scatter-adds — with the
  same operations on the same arguments. They differ in the dense part: the reference takes five host products
  `T_k·W_k` and adds them left to right, then the bias; the kernel's program runs five kernel regions, each tiling the
  40000 nodes into ten blocks of 4000 rows, the first storing `x·W₀` and the later ones the running total plus
  `T_k·W_k` (plus the bias in the last), the operands narrowed to bf16 on the way, which at exact arithmetic changes
  nothing. Entry by entry both results are `((((Σ x W₀ + Σ T₁ W₁) + Σ T₂ W₂) + Σ T₃ W₃) + Σ T₄ W₄) + bias` with every
  sum over the shared channel axis: the same terms in the same order, so no law of arithmetic beyond reading a
  product as that sum is needed, and the inputs' finiteness is never used.

  The frames of the kernel's two programs are the generated ones; the reference's frame is its run with the result
  dropped. No operation was rewritten in passing to exact arithmetic, so `preserves` is trivial. For `algebraic`: the kernel program's run
  names its result buffer, the boundary facts read it back to the specification of the arguments, and the
  reference's run ends at the same specification of its own arguments, which agree.
-/
import proofs.«137525_j13288628814252_2_alg».proof.Defs
import proofs.«137525_j13288628814252_2_alg».proof.Proof.Gen.Kernel
import proofs.«137525_j13288628814252_2_alg».proof.Proof.Gen.Kernel.Skeleton
import proofs.«137525_j13288628814252_2_alg».proof.Proof.Gen.Kernel.Launch
import proofs.«137525_j13288628814252_2_alg».proof.Proof.Gen.Kernel.Points
import proofs.«137525_j13288628814252_2_alg».proof.Proof.Gen.Kernel.Frame
import proofs.«137525_j13288628814252_2_alg».proof.Proof.Gen.KernelIdeal
import proofs.«137525_j13288628814252_2_alg».proof.Proof.Gen.KernelIdeal.Skeleton
import proofs.«137525_j13288628814252_2_alg».proof.Proof.Gen.KernelIdeal.Launch
import proofs.«137525_j13288628814252_2_alg».proof.Proof.Gen.KernelIdeal.Points
import proofs.«137525_j13288628814252_2_alg».proof.Proof.Gen.KernelIdeal.Frame
import proofs.«137525_j13288628814252_2_alg».proof.Proof.Gen.ReferenceIdeal
import proofs.«137525_j13288628814252_2_alg».proof.Proof.Gen.Pre_finite_inputs
import proofs.«137525_j13288628814252_2_alg».proof.Proof.RefRun
import proofs.«137525_j13288628814252_2_alg».proof.Proof.RefValue
import proofs.«137525_j13288628814252_2_alg».proof.Proof.KernelRun
import proofs.«137525_j13288628814252_2_alg».proof.Proof.Stages
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- No operation was rewritten in passing to exact arithmetic. -/
theorem preserves : Cert.preserves_Kernel_KernelIdeal := trivial

/-- Both runs end, from arguments that agree, at the same function of them: the nested running totals of the five
    products plus the bias. -/
theorem algebraic : Cert.algebraic_KernelIdeal_ReferenceIdeal := by
  intro m ρ m' ρ' _ hagree
  refine ⟨fun c => Cert.ChebSpec.accumBias
      (Cert.ChebSpec.accum (Cert.ChebSpec.accum (Cert.ChebSpec.accum
        (Cert.ChebSpec.prod (Cert.KernelIdeal.Stages.X0 m c) (Cert.ReferenceIdeal.Chain.w0 (F := Ideal) (Cert.KernelIdeal.Stages.X3 m c)))
        (Cert.ReferenceIdeal.Chain.T1 (F := Ideal) (Cert.KernelIdeal.Stages.X0 m c) (Cert.KernelIdeal.Stages.X1 m c) (Cert.KernelIdeal.Stages.X2 m c))
        (Cert.ReferenceIdeal.Chain.w1 (F := Ideal) (Cert.KernelIdeal.Stages.X3 m c)))
        (Cert.ReferenceIdeal.Chain.T2 (F := Ideal) (Cert.KernelIdeal.Stages.X0 m c) (Cert.KernelIdeal.Stages.X1 m c) (Cert.KernelIdeal.Stages.X2 m c))
        (Cert.ReferenceIdeal.Chain.w2 (F := Ideal) (Cert.KernelIdeal.Stages.X3 m c)))
        (Cert.ReferenceIdeal.Chain.T3 (F := Ideal) (Cert.KernelIdeal.Stages.X0 m c) (Cert.KernelIdeal.Stages.X1 m c) (Cert.KernelIdeal.Stages.X2 m c))
        (Cert.ReferenceIdeal.Chain.w3 (F := Ideal) (Cert.KernelIdeal.Stages.X3 m c)))
      (Cert.ReferenceIdeal.Chain.T4 (F := Ideal) (Cert.KernelIdeal.Stages.X0 m c) (Cert.KernelIdeal.Stages.X1 m c) (Cert.KernelIdeal.Stages.X2 m c))
      (Cert.ReferenceIdeal.Chain.w4 (F := Ideal) (Cert.KernelIdeal.Stages.X3 m c))
      (Cert.ChebSpec.biasRow (Cert.KernelIdeal.Stages.X4 m c)), ?_, ?_⟩
  · exact (θ_run Cert.KernelIdeal.defs _ _).mono
      (fun _ h c => ⟨(h c).1.trans (Cert.KernelIdeal.Stages.at14_out m ρ c), (h c).2⟩)
      (Cert.KernelIdeal.NamedRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2]
    exact Cert.ReferenceIdeal.RefValue.refOut_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
